-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S4x4096x4096 : Shape := ⟨3, ![4, 4096, 4096]⟩
abbrev S128x128 : Shape := ⟨2, ![128, 128]⟩
abbrev S128 : Shape := ⟨1, ![128]⟩
abbrev S_ : Shape := ⟨0, ![]⟩
abbrev S4x4096 : Shape := ⟨2, ![4, 4096]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S4x4096x4096_S4x4096_d2 : S4x4096x4096.ReducesTo [2] S4x4096
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg1 : FVec F S4x4096x4096 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_cst_6 : FVec F S_ .f32 := constant S_ .f32 0x00000000#32
  let main_v19 : FVec F S4x4096 .f32 := (fun x v => Host.reduceAdd x v reducesTo_S4x4096x4096_S4x4096_d2 h_S_) main_arg1 main_cst_6
  let main_cst_7 : FVec F S_ .f32 := constant S_ .f32 0x358637BD#32
  let main_v20 : FVec F S4x4096 .f32 := broadcastInDim S4x4096 ![] bcast_S_S4x4096 main_cst_7
  let main_v21 : FVec F S4x4096 .f32 := addf main_v19 main_v20
  let main_cst_8 : FVec F S_ .f32 := constant S_ .f32 0x00000000#32
  let main_v22 : FVec F S4x4096 .f32 := broadcastInDim S4x4096 ![] bcast_S_S4x4096 main_cst_8
  let main_v23 : IVec S4x4096 1 := cmpf .ogt main_v21 main_v22
  let main_c_9 : IVec S_ 1 := constantI S_ 1 1#1
  let main_v24 : IVec S_ 1 := (fun x v => Host.reduce IntOp.andi x v reducesTo_S4x4096_S_d0_1 h_S_) main_v23 main_c_9
  let main_v25 : IVec S_ 1 := andi main_v18 main_v24
  main_v25

def fn {F : FTy → Type} [FloatOps F] (main_arg0 : FVec F S4x4096x128 .f32) (main_arg1 : FVec F S4x4096x4096 .f32) (main_arg2 : FVec F S128x128 .f32) (main_arg3 : FVec F S128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S4x4096x128 : Shape := ⟨3, ![4, 4096, 128]⟩
abbrev S4x4096x4096 : Shape := ⟨3, ![4, 4096, 4096]⟩
abbrev S128x128 : Shape := ⟨2, ![128, 128]⟩
abbrev S128 : Shape := ⟨1, ![128]⟩
abbrev S4x4096x1 : Shape := ⟨3, ![4, 4096, 1]⟩
abbrev S1x1024x4096 : Shape := ⟨3, ![1, 1024, 4096]⟩
abbrev S1x1024x1 : Shape := ⟨3, ![1, 1024, 1]⟩
abbrev S1024x4096 : Shape := ⟨2, ![1024, 4096]⟩
abbrev S1024 : Shape := ⟨1, ![1024]⟩
abbrev S1024x1 : Shape := ⟨2, ![1024, 1]⟩
abbrev S_ : Shape := ⟨0, ![]⟩
abbrev S1x1024x2048 : Shape := ⟨3, ![1, 1024, 2048]⟩
abbrev S1x2048x128 : Shape := ⟨3, ![1, 2048, 128]⟩
abbrev S1x1024x128 : Shape := ⟨3, ![1, 1024, 128]⟩
abbrev S1024x128 : Shape := ⟨2, ![1024, 128]⟩
abbrev S1024x2048 : Shape := ⟨2, ![1024, 2048]⟩
abbrev S2048x128 : Shape := ⟨2, ![2048, 128]⟩
abbrev S1x128 : Shape := ⟨2, ![1, 128]⟩

abbrev nBuf : Space → Nat
  | .hbm => 12
  | .vmem => 15
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S128x128, .f32⟩
  | .hbm, ⟨3, _⟩ => ⟨S128, .f32⟩
  | .hbm, ⟨4, _⟩ => ⟨S4x4096x1, .f32⟩
  | .hbm, ⟨5, _⟩ => ⟨S_, .f32⟩
  | .hbm, ⟨6, _⟩ => ⟨S4x4096x1, .f32⟩
  | .hbm, ⟨7, _⟩ => ⟨S4x4096x1, .f32⟩
  | .hbm, ⟨8, _⟩ => ⟨S4x4096x1, .f32⟩
  | .hbm, ⟨9, _⟩ => ⟨S4x4096x128, .f32⟩
  | .hbm, ⟨10, _⟩ => ⟨S4x4096x128, .f32⟩
  | .hbm, ⟨11, _⟩ => ⟨S4x4096x128, .f32⟩
  | .local _ .vmem, ⟨0, _⟩ => ⟨S1x1024x4096, .f32⟩
  | .local _ .vmem, ⟨1, _⟩ => ⟨S1x1024x4096, .f32⟩
  | .local _ .vmem, ⟨2, _⟩ => ⟨S1x1024x1, .f32⟩
  | .local _ .vmem, ⟨3, _⟩ => ⟨S1x1024x1, .f32⟩
  | .local _ .vmem, ⟨4, _⟩ => ⟨S1x1024x2048, .f32⟩
  | .local _ .vmem, ⟨5, _⟩ => ⟨S1x1024x2048, .f32⟩
  | .local _ .vmem, ⟨6, _⟩ => ⟨S1x2048x128, .f32⟩
  | .local _ .vmem, ⟨7, _⟩ => ⟨S1x2048x128, .f32⟩
  | .local _ .vmem, ⟨8, _⟩ => ⟨S1x1024x1, .f32⟩
  | .local _ .vmem, ⟨9, _⟩ => ⟨S1x1024x1, .f32⟩
  | .local _ .vmem, ⟨10, _⟩ => ⟨S128x128, .f32⟩
  | .local _ .vmem, ⟨11, _⟩ => ⟨S128, .f32⟩
  | .local _ .vmem, ⟨12, _⟩ => ⟨S1x1024x128, .f32⟩
  | .local _ .vmem, ⟨13, _⟩ => ⟨S1x1024x128, .f32⟩
  | .local _ .vmem, ⟨14, _⟩ => ⟨S1024x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_10 : BitVec 32 := 0#32
  let v17 : BitVec 1 := Scalar.cmpi .ne v16 c0_i32_10
  v17

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  reduces_S1024x4096_S1024 : S1024x4096.Reduces [1] S1024
  shapeCasts_S1024_S1024x1 : S1024.ShapeCasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  bcast_S_S4x4096x1 : S_.BroadcastsInDim S4x4096x1 (![] : Fin 0 → Fin S4x4096x1.rank)
  bcast_S4x4096x1_S4x4096x128_0_1_2 : S4x4096x1.BroadcastsInDim S4x4096x128 (![0, 1, 2] : Fin 3 → Fin S4x4096x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4096.size a ≤ S4x4096x4096.size a
  hwx0_0 : ∀ i : grid0.Coords, EltTy.bits .f32 = 32 ∨ (Rect.block (s := S4x4096x4096) S1x1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S4x4096x1.size a
  hwx0_1 : ∀ i : grid0.Coords, EltTy.bits .f32 = 32 ∨ (Rect.block (s := S4x4096x1) S1x1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2048.size a ≤ S4x4096x4096.size a
  hwx1_0 : ∀ i : grid1.Coords, EltTy.bits .f32 = 32 ∨ (Rect.block (s := S4x4096x4096) S1x1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x4096x128.size a
  hwx1_1 : ∀ i : grid1.Coords, EltTy.bits .f32 = 32 ∨ (Rect.block (s := S4x4096x128) S1x2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1.size a ≤ S4x4096x1.size a
  hwx1_2 : ∀ i : grid1.Coords, EltTy.bits .f32 = 32 ∨ (Rect.block (s := S4x4096x1) S1x1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x128.size a ≤ S4x4096x128.size a
  hwx1_5 : ∀ i : grid1.Coords, EltTy.bits .f32 = 32 ∨ (Rect.block (s := S4x4096x128) S1x1024x128.size (cc1_transform_5 i) (hinb1_5 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1x1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x4096x128 : Shape := ⟨3, ![4, 4096, 128]⟩
abbrev S4x4096x4096 : Shape := ⟨3, ![4, 4096, 4096]⟩
abbrev S128x128 : Shape := ⟨2, ![128, 128]⟩
abbrev S128 : Shape := ⟨1, ![128]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S1x1x128 : Shape := ⟨3, ![1, 1, 128]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S4x4096, .f32⟩
  | .hbm, ⟨6, _⟩ => ⟨S_, .f32⟩
  | .hbm, ⟨7, _⟩ => ⟨S4x4096, .f32⟩
  | .hbm, ⟨8, _⟩ => ⟨S4x4096, .f32⟩
  | .hbm, ⟨9, _⟩ => ⟨S_, .f32⟩
  | .hbm, ⟨10, _⟩ => ⟨S4x4096, .f32⟩
  | .hbm, ⟨11, _⟩ => ⟨S4x4096, .f32⟩
  | .hbm, ⟨12, _⟩ => ⟨S4x4096x1, .f32⟩
  | .hbm, ⟨13, _⟩ => ⟨S4x4096x4096, .f32⟩
  | .hbm, ⟨14, _⟩ => ⟨S4x4096x4096, .f32⟩
  | .hbm, ⟨15, _⟩ => ⟨S4x1x4096, .f32⟩
  | .hbm, ⟨16, _⟩ => ⟨S4x4096x4096, .f32⟩
  | .hbm, ⟨17, _⟩ => ⟨S4x4096x4096, .f32⟩
  | .hbm, ⟨18, _⟩ => ⟨S4x4096x128, .f32⟩
  | .hbm, ⟨19, _⟩ => ⟨S4x4096x128, .f32⟩
  | .hbm, ⟨20, _⟩ => ⟨S1x1x128, .f32⟩
  | .hbm, ⟨21, _⟩ => ⟨S4x4096x128, .f32⟩
  | .hbm, ⟨22, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  dot_S4x4096x4096_S4x4096x128_S4x4096x128_2_1_1_2_0_0_wf : DotDims.WF S4x4096x4096 S4x4096x128 S4x4096x128 [2] [1] [1] [2] [0] [0]
  dot_S4x4096x128_S128x128_S4x4096x128_2_0_01_1_n_n_wf : DotDims.WF S4x4096x128 S128x128 S4x4096x128 [2] [0] [0, 1] [1] [] []

variable [Facts₀]

def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf
def dot_S4x4096x128_S128x128_S4x4096x128_2_0_01_1_n_n : DotDims S4x4096x128 S128x128 S4x4096x128 where
  lhsContracting := [2]
  rhsContracting := [0]
  lhsNonContracting := [0, 1]
  rhsNonContracting := [1]
  lhsBatch := []
  rhsBatch := []
  wf := dot_S4x4096x128_S128x128_S4x4096x128_2_0_01_1_n_n_wf

class Facts : Prop extends Facts₀ where

variable [Facts]
-- ==== Proof.DegreeRegionB.lean ====
/-
  The degree kernel's region (the first pallas_call): a grid of 4 × 4 points, point (b, i) reading the block of 1024 whole
  rows  adj (b, 1024·i …, ·)  and writing the 1024 row sums into the block  deg (b, 1024·i …, 0).
  Stated at a parameter `V`, the buffer contents the region is entered from: each window's block at a point, what the body
  leaves in the output's staging buffer (its one store, over the payload of the input block), the body's triple, the
  proof data (the input's buffer keeps its block, the output's holds the stored value, nothing else is touched) and the
  body obligation at every point.
-/
import proofs.«128174_j15762529976410_2_alg».proof.Proof.Gen.Kernel.Launch
import proofs.«128174_j15762529976410_2_alg».proof.Proof.Gen.Kernel.Skeleton
import proofs.«128174_j15762529976410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as rectangles. -/
abbrev rIn0 : Rect S1x1024x4096 := Rect.unit (s := S1x1024x4096) ![0, 0, 0] S1x1024x4096.size inb_S1x1024x4096_S1x1024x4096_0_0_0
abbrev rOut0 : Rect S1x1024x1 := Rect.unit (s := S1x1024x1) ![0, 0, 0] S1x1024x1.size inb_S1x1024x1_S1x1024x1_0_0_0

/-- What the body leaves in the output's staging buffer: its one store, of the row sums of the input block. -/
def out0_1 (x0 : Vec F S1x1024x4096 .f32) : Vec F S1x1024x1 .f32 :=
  View.canon [⟨rOut0, k0_pay1 (View.ld x0 rIn0)⟩]

/-- The one store covers the buffer. -/
theorem cover0_1 (p0 : Vec F S1x1024x1 .f32) (y : S1x1024x1.Idx) :
    ∃ pc ∈ ([⟨rOut0, p0⟩] : List (View.Piece (Elt F) S1x1024x1 .f32)), y ∈ pc.1.set :=
  View.cover_of_tiled [⟨rOut0, p0⟩] S1x1024x1.size (by rfl) y

set_option maxHeartbeats 1000000 in
/-- The body on whole staging memrefs, the input's at contents `x0` and the output's at anything, runs to the continuation
    holding the input's as it was and the output's at `out0_1 x0`. -/
theorem sound_kernel0 (c : Dev nD) (E : Set ℕ) (i : grid0.Coords) (arg2 : Memref sig .tc .vmem S1x1024x4096 .f32) (harg2 : arg2.IsWhole) (arg3 : Memref sig .tc .vmem S1x1024x1 .f32) (harg3 : arg3.IsWhole)
    (x0 : Vec F S1x1024x4096 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__degree_kernel i arg2 harg2 arg3 harg3) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the degree pipeline on core `c`: the arrays as the region finds them; after the body at point `t`
    the input's buffer at its block and the output's at the row sums of that block; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the degree pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.AggSharedB.lean ====
/-
  The aggregation kernel's region (the second pallas_call): a grid of 4 × 4 × 2 points; point (b, i, j) reads the block
  adj (b, 1024·i …, 2048·j …), the block of scaled features xs (b, 2048·j …, ·), the degree block (b, 1024·i …, 0), the weights
  and the bias, and keeps a 1024 × 128 accumulator in a scratch buffer of its own from one point to the next: zeroed where
  j = 0, increased by the block product at every point, and where j = 1 scaled row by row, multiplied by the weights,
  shifted by the bias and stored into the output block (b, 1024·i …, ·), which is written back at those points only.
  Here: what every run of the body is stated over — each window's block at a point, the two branch conditions in closed form
  (decided over the grid: j = 0 at the even points, j = 1 at the odd ones), where the output window is idle, the staging and
  scratch memrefs, and the shape of the region's invariant (the scoped buffers the region does not stage, the scratch
  among them, and the generator register).
-/
import proofs.«128174_j15762529976410_2_alg».proof.Proof.Gen.Kernel.Launch
import proofs.«128174_j15762529976410_2_alg».proof.Proof.Gen.Kernel.Skeleton
import proofs.«128174_j15762529976410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not (where it is not fetched its
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first branch's condition (the accumulator is zeroed), from the grid coordinates: j = 0. -/
abbrev cond1_0 (i : grid1.Coords) : Prop := (Scalar.cmpi .ne (Scalar.extui (Scalar.cmpi .eq (BitVec.ofNat 32 (i 2).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second branch's condition (the output block is computed and stored): j = 1. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At the even points the output window is idle: the body stores nothing into it, -/
theorem idleAt1_5_A : ∀ t : Fin cfg1.N, cond1_0 (grid1.coords t) → ¬cond1_1 (grid1.coords t) → cfg1.idle 5 (grid1.coords t) = true := by decide +kernel
/-- and the pipeline does not write its block back. -/
theorem noFlush1_5_A : ∀ t : Fin cfg1.N, cond1_0 (grid1.coords t) → ¬cond1_1 (grid1.coords t) → (cfg1.win 5).flush t = false := by decide +kernel
/-- At the odd points it is live. -/
theorem liveAt1_5_B : ∀ t : Fin cfg1.N, ¬cond1_0 (grid1.coords t) → cond1_1 (grid1.coords t) → cfg1.idle 5 (grid1.coords t) = false := by decide +kernel

/-! ## The memrefs the body is called with -/

/-- One staging buffer of the output window, through which its contents are stated. -/
abbrev VO1_5 : View sig .tc .vmem S1x1024x128 .f32 := (Memref.whole cc1_stg5_0 : Memref sig .tc .vmem S1x1024x128 .f32).view
abbrev ms1_0 (t : Fin cfg1.N) : Memref sig .tc .vmem S1x1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x128 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows and carried between points. -/
abbrev scM1 : Memref sig .tc .vmem S1024x128 .f32 := Memref.whole cc1_scratch0
abbrev VS1 : View sig .tc .vmem S1024x128 .f32 := scM1.view

/-- The scoped buffers the region does not stage, other than the accumulator: the degree call's four staging buffers,
    each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The invariant before the first point, with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Hand

end
-- ==== Proof.AggRunAB.lean ====
/-
  The aggregation body run whole at an even point (j = 0): the accumulator is stored whole with zeros, then with the zeros
  plus the block product; the output's staging buffer is handed back untouched. The pieces the accumulator ends with are
  what the run finds.
-/
import proofs.«128174_j15762529976410_2_alg».proof.Proof.AggSharedB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At an even point: on whole staging memrefs, the inputs' at their contents, the output's at contents `xi5` handed back
    untouched, the accumulator's at anything, the body runs to the continuation holding the inputs' as they were and the
    accumulator with its pieces written. -/
noncomputable def kernelRun1_A (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : cond1_0 i) (hc1 : ¬cond1_1 i)
    (x0 : Vec F S1x1024x2048 .f32) (x1 : Vec F S1x2048x128 .f32) (x2 : Vec F S1x1024x1 .f32) (x3 : Vec F S128x128 .f32) (x4 : Vec F S128 .f32) :
    Σ' (L5 : List (View.Piece (Elt F) S1x1024x128 .f32)), { LS0 : List (View.Piece (Elt F) S1024x128 .f32) //
      ∀ (xi5 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__agg_kernel i arg3 harg3 arg4 harg4 arg5 harg5 arg6 harg6 arg7 harg7 arg8 harg8 arg9 harg9) K } := by
  refine ⟨[], ?_, fun xi5 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.AggRunBB.lean ====
/-
  The aggregation body run whole at an odd point (j = 1): the accumulator, at the contents the point before left, is
  stored whole with itself plus the block product; then the degree block is shifted and its reciprocal square root taken,
  the accumulator scaled row by row, multiplied by the weights, shifted by the bias and stored whole into the output's
  staging buffer. The pieces the output and the accumulator end with are what the run finds.
-/
import proofs.«128174_j15762529976410_2_alg».proof.Proof.AggSharedB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At an odd point: on whole staging memrefs, the inputs' at their contents, the output's at anything, the accumulator's
    at the contents `xs0` the point before left, the body runs to the continuation holding the inputs' as they were and
    the output and the accumulator with their pieces written. -/
noncomputable def kernelRun1_B (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : ¬cond1_0 i) (hc1 : cond1_1 i)
    (x0 : Vec F S1x1024x2048 .f32) (x1 : Vec F S1x2048x128 .f32) (x2 : Vec F S1x1024x1 .f32) (x3 : Vec F S128x128 .f32) (x4 : Vec F S128 .f32) (xs0 : Vec F S1024x128 .f32) :
    Σ' (L5 : List (View.Piece (Elt F) S1x1024x128 .f32)), { LS0 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__agg_kernel i arg3 harg3 arg4 harg4 arg5 harg5 arg6 harg6 arg7 harg7 arg8 harg8 arg9 harg9) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Hand

end
-- ==== Proof.AggRegionB.lean ====
/-
  The aggregation region's proof data and body obligation. What the accumulator and the output's staging buffer hold
  after each point is defined by recursion on the point: an even point leaves the accumulator at zeros plus its block
  product; an odd point leaves it at what the even point before left plus its own block product, and leaves the output's
  buffer at the scaled, projected, shifted accumulator. The region's invariant carries the accumulator at those contents
  from one point to the next (before the first point, and after the last, it is at anything).
-/
import proofs.«128174_j15762529976410_2_alg».proof.Proof.AggRunAB
import proofs.«128174_j15762529976410_2_alg».proof.Proof.AggRunBB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- An even point stores nothing into the output's buffer: a placeholder nothing consults (the window is idle there). -/
def out1_A_5 (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : cond1_0 i) (hc1 : ¬cond1_1 i)
    (x0 : Vec F S1x1024x2048 .f32) (x1 : Vec F S1x2048x128 .f32) (x2 : Vec F S1x1024x1 .f32) (x3 : Vec F S128x128 .f32) (x4 : Vec F S128 .f32) : Vec F S1x1024x128 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- An even point's stores into the accumulator cover it. -/
theorem scover1_A (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : cond1_0 i) (hc1 : ¬cond1_1 i)
    (x0 : Vec F S1x1024x2048 .f32) (x1 : Vec F S1x2048x128 .f32) (x2 : Vec F S1x1024x1 .f32) (x3 : Vec F S128x128 .f32) (x4 : Vec F S128 .f32) (y : S1024x128.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S1024x128.size (by sl_kernel_rfl) y

/-- What an even point leaves in the accumulator. -/
def sout1_A (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : cond1_0 i) (hc1 : ¬cond1_1 i)
    (x0 : Vec F S1x1024x2048 .f32) (x1 : Vec F S1x2048x128 .f32) (x2 : Vec F S1x1024x1 .f32) (x3 : Vec F S128x128 .f32) (x4 : Vec F S128 .f32) : Vec F S1024x128 .f32 :=
  VS1.read (Elt F) (VS1.writes (Elt F) VS1.junk (kernelRun1_A c i arg3 harg3 arg4 harg4 arg5 harg5 arg6 harg6 arg7 harg7 arg8 harg8 arg9 harg9 hc0 hc1 x0 x1 x2 x3 x4).2.1)

/-- An odd point's one store into the output's buffer covers it. -/
theorem cover1_B_5 (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : ¬cond1_0 i) (hc1 : cond1_1 i)
    (x0 : Vec F S1x1024x2048 .f32) (x1 : Vec F S1x2048x128 .f32) (x2 : Vec F S1x1024x1 .f32) (x3 : Vec F S128x128 .f32) (x4 : Vec F S128 .f32) (xs0 : Vec F S1024x128 .f32) (y : S1x1024x128.Idx) :
    ∃ pc ∈ (kernelRun1_B c i arg3 harg3 arg4 harg4 arg5 harg5 arg6 harg6 arg7 harg7 arg8 harg8 arg9 harg9 hc0 hc1 x0 x1 x2 x3 x4 xs0).1, y ∈ pc.1.set :=
  View.cover_of_tiledL (kernelRun1_B c i arg3 harg3 arg4 harg4 arg5 harg5 arg6 harg6 arg7 harg7 arg8 harg8 arg9 harg9 hc0 hc1 x0 x1 x2 x3 x4 xs0).1 S1x1024x128.size (by sl_kernel_rfl) y

/-- What an odd point leaves in the output's buffer. -/
def out1_B_5 (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : ¬cond1_0 i) (hc1 : cond1_1 i)
    (x0 : Vec F S1x1024x2048 .f32) (x1 : Vec F S1x2048x128 .f32) (x2 : Vec F S1x1024x1 .f32) (x3 : Vec F S128x128 .f32) (x4 : Vec F S128 .f32) (xs0 : Vec F S1024x128 .f32) : Vec F S1x1024x128 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- An odd point's store into the accumulator covers it. -/
theorem scover1_B (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : ¬cond1_0 i) (hc1 : cond1_1 i)
    (x0 : Vec F S1x1024x2048 .f32) (x1 : Vec F S1x2048x128 .f32) (x2 : Vec F S1x1024x1 .f32) (x3 : Vec F S128x128 .f32) (x4 : Vec F S128 .f32) (xs0 : Vec F S1024x128 .f32) (y : S1024x128.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S1024x128.size (by sl_kernel_rfl) y

/-- What an odd point leaves in the accumulator. -/
def sout1_B (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : ¬cond1_0 i) (hc1 : cond1_1 i)
    (x0 : Vec F S1x1024x2048 .f32) (x1 : Vec F S1x2048x128 .f32) (x2 : Vec F S1x1024x1 .f32) (x3 : Vec F S128x128 .f32) (x4 : Vec F S128 .f32) (xs0 : Vec F S1024x128 .f32) : Vec F S1024x128 .f32 :=
  VS1.read (Elt F) (VS1.writes (Elt F) VS1.junk (kernelRun1_B c i arg3 harg3 arg4 harg4 arg5 harg5 arg6 harg6 arg7 harg7 arg8 harg8 arg9 harg9 hc0 hc1 x0 x1 x2 x3 x4 xs0).2.1)

section Region1

variable (V : (c : Dev nD) → (b : Ref sig .tc) → Buf (Elt F) ((c : Thread nD τ).loc b))

/-! ## What the output's buffer and the accumulator hold after each point -/

/-- The pair (output's buffer, accumulator) an even point `t` leaves. -/
def pairA (c : Dev nD) (t : Fin cfg1.N) (h0 : t.val % 2 = 0) : Vec F S1x1024x128 .f32 × Vec F S1024x128 .f32 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => by have h' := (hcond1_1 t).mp h; omega) (iblk1 V c 0 t) (iblk1 V c 1 t) (iblk1 V c 2 t) (iblk1 V c 3 t) (iblk1 V c 4 t),
   sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => by have h' := (hcond1_1 t).mp h; omega) (iblk1 V c 0 t) (iblk1 V c 1 t) (iblk1 V c 2 t) (iblk1 V c 3 t) (iblk1 V c 4 t))

/-- The pair an odd point `t` leaves, over the accumulator `xs0` the point before left. -/
def pairB (c : Dev nD) (t : Fin cfg1.N) (h1 : t.val % 2 = 1) (xs0 : Vec F S1024x128 .f32) : Vec F S1x1024x128 .f32 × Vec F S1024x128 .f32 :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => by have h' := (hcond1_0 t).mp h; omega) ((hcond1_1 t).mpr h1) (iblk1 V c 0 t) (iblk1 V c 1 t) (iblk1 V c 2 t) (iblk1 V c 3 t) (iblk1 V c 4 t) xs0,
   sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => by have h' := (hcond1_0 t).mp h; omega) ((hcond1_1 t).mpr h1) (iblk1 V c 0 t) (iblk1 V c 1 t) (iblk1 V c 2 t) (iblk1 V c 3 t) (iblk1 V c 4 t) xs0)

/-- The accumulation, by recursion on the position: the case the point is in, an odd point over what the point before left. -/
def outsAt1 (c : Dev nD) : (n : ℕ) → n < cfg1.N → Vec F S1x1024x128 .f32 × Vec F S1024x128 .f32
  | 0, hn => pairA V c ⟨0, hn⟩ (Nat.zero_mod _)
  | n + 1, hn =>
    if h0 : (n + 1) % 2 = 0 then pairA V c ⟨n + 1, hn⟩ h0
    else pairB V c ⟨n + 1, hn⟩ (Nat.mod_two_ne_zero.mp h0) (outsAt1 c n (Nat.lt_of_succ_lt hn)).2

theorem outsAt1_A (c : Dev nD) (t : Fin cfg1.N) (h0 : t.val % 2 = 0) :
    outsAt1 V c t.val t.isLt = pairA V c t h0 := by
  obtain ⟨n, hn⟩ := t
  cases n with
  | zero => exact rfl
  | succ n => exact (dif_pos h0).trans rfl

theorem outsAt1_B (c : Dev nD) (t : Fin cfg1.N) (h0 : ¬t.val % 2 = 0) :
    outsAt1 V c t.val t.isLt = pairB V c t (Nat.mod_two_ne_zero.mp h0) (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The invariant -/

abbrev oA (c : Dev nD) : sProp 𝕄 := iprop(∃ f : Buf (Elt F) ((c : Thread nD τ).loc cc0_stg0_0), ((c : Thread nD τ).loc cc0_stg0_0) ↦{fullShare} f)
abbrev oB (c : Dev nD) : sProp 𝕄 := iprop(∃ f : Buf (Elt F) ((c : Thread nD τ).loc cc0_stg0_1), ((c : Thread nD τ).loc cc0_stg0_1) ↦{fullShare} f)
abbrev oC (c : Dev nD) : sProp 𝕄 := iprop(∃ f : Buf (Elt F) ((c : Thread nD τ).loc cc0_stg1_0), ((c : Thread nD τ).loc cc0_stg1_0) ↦{fullShare} f)
abbrev oD (c : Dev nD) : sProp 𝕄 := iprop(∃ f : Buf (Elt F) ((c : Thread nD τ).loc cc0_stg1_1), ((c : Thread nD τ).loc cc0_stg1_1) ↦{fullShare} f)

theorem PhiA1_eq' (c : Dev nD) :
    (Pipeline.ΦA spec1 c : sProp 𝕄) = iprop(iprop(oA c ∗ oB c ∗ oC c ∗ oD c ∗ (∃ d, owns (c : Thread nD τ) scM1 fullShare d)) ∗ (∃ r, prngReg c r)) :=
  PhiA1_eq c

/-- The region's invariant before position `n`: before the first point every scoped buffer the region does not stage at
    anything; afterwards the same with the accumulator at what the point before left. -/
def PhiS1 (c : Dev nD) : (n : ℕ) → n ≤ cfg1.N → sProp 𝕄
  | 0, _ => Pipeline.ΦA spec1 c
  | n + 1, hn => iprop(iprop(oA c ∗ oB c ∗ oC c ∗ oD c ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(oA c ∗ oB c ∗ oC c ∗ oD c ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop(oA c ∗ oB c ∗ oC c ∗ oD c ∗ owns (c : Thread nD τ) scM1 fullShare ((outsAt1 V c (n - 1) (by omega)).2)) ∗ (∃ r, prngReg c r)) := by
  cases n with
  | zero => exact absurd rfl hz
  | succ n => rfl

/-! ## The proof data -/

/-- The proof data of the aggregation pipeline on core `c`: the arrays as the region finds them; after the body at point
    `t` each input's buffer at its block and the output's at the accumulation's first component; the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the parity of the point says which case it is in; the
    invariant hands the body the accumulator at what the point before left (at anything at the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 2 = 0
  · rw [Dat.leavesExact_idle (dat1 V c) 5 t (idleAt1_5_A t ((hcond1_0 t).mpr h0) (fun h => by have h' := (hcond1_1 t).mp h; omega)) (noFlush1_5_A t ((hcond1_0 t).mpr h0) (fun h => by have h' := (hcond1_1 t).mp h; omega))]
    rw [outsAt1_A V c t h0]
    unfold pairA sout1_A; (try dsimp only)
    by_cases hz : t.val = 0
    ·
        rw [PhiS1_castSucc V c t, PhiS1_zero V c _ _ hz, PhiA1_eq']
        iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => by have h' := (hcond1_1 t).mp h; omega) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    ·
        rw [PhiS1_castSucc V c t, PhiS1_pos V c _ _ hz]
        iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => by have h' := (hcond1_1 t).mp h; omega) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · rw [show (dat1 V c).leavesExact 5 t = owns (c : Thread nD τ) (ms1_5 t) fullShare ((dat1 V c).after 5 t) from by
      unfold Dat.leavesExact; rw [liveAt1_5_B t (fun h => h0 ((hcond1_0 t).mp h)) ((hcond1_1 t).mpr (Nat.mod_two_ne_zero.mp h0))], after1_5]
    rw [outsAt1_B V c t h0]
    unfold pairB out1_B_5 sout1_B; (try dsimp only)
    by_cases hz : t.val = 0
    · exfalso; omega
    ·
        rw [PhiS1_castSucc V c t, PhiS1_pos V c _ _ hz]
        iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) ((hcond1_1 t).mpr (Nat.mod_two_ne_zero.mp h0)) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_B c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_B_5 c _ _ _ _ _ _ _ _ _ _ _ _ _ _ _ _ _ _ _ _ _ _ _)

/-- The body obligation of the aggregation pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq']
  iintro ⟨⟨HA, HB, HC, HD, HS0⟩, Hg⟩
  isplitl [HA HB HC HD HS0]
  · isplitl [HA]; · iexact HA
    isplitl [HB]; · iexact HB
    isplitl [HC]; · iexact HC
    isplitl [HD]; · iexact HD
    iexists _; iexact HS0
  iexact Hg

theorem hout1 (c : Dev nD) : (dat1 V c).Φ (Fin.last cfg1.N) ⊢ Pipeline.ΦA spec1 c :=
  Phi_out1 V c _ (by rw [Fin.val_last]; have : cfg1.N = 32 := N_1; omega)

end Region1

end Cert.Kernel.Hand

end
-- ==== Proof.RunB.lean ====
/-
  The run of the whole program: the degree region, the six host operations between the regions (the shift, the
  reciprocal square root, its broadcast along the features, the scaling of the features), the aggregation region.
  The buffer contents at each boundary are a fold from the launch memory: a region leaves each of its arrays at what its
  write-backs leave and every other buffer as entered; the host stretch is the fold of its operations. Each region is a
  record over the state "every unscoped buffer at the boundary's contents, the generator register at some state, nothing
  owed"; the launch over the three segments ends with every unscoped buffer at the last boundary's contents, from which
  the argument arrays are read back to their launch contents and the result array to what the aggregation's write-backs leave.
-/
import proofs.«128174_j15762529976410_2_alg».proof.Proof.DegreeRegionB
import proofs.«128174_j15762529976410_2_alg».proof.Proof.AggRegionB
import proofs.«128174_j15762529976410_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch (the degree region's entry). -/
abbrev W0 : Dev nD → Valuation τ sig (Elt F) := fun c b => m (c, b)
abbrev VV0 : (c : Dev nD) → (b : Ref sig .tc) → Buf (Elt F) ((c : Thread nD τ).loc b) := fun c b => W0 m c b
/-- At the degree region's exit: its arrays at what the pipeline leaves, every other buffer as entered. -/
def W1 (c : Dev nD) : Valuation τ sig (Elt F) :=
  Pipeline.withArrays spec0 c (W0 m c) fun w => (dat0 (VV0 m) c).arrAt w cfg0.N
theorem W1_arr (c : Dev nD) (w : Fin cfg0.W) :
    W1 m c (Proc.devRef .tc (Pipeline.arrRef spec0 w)) = (dat0 (VV0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VV1 : (c : Dev nD) → (b : Ref sig .tc) → Buf (Elt F) ((c : Thread nD τ).loc b) := fun c b => W1 m c b
theorem hF0 (c : Dev nD) (w : Fin cfg0.W) : (dat0 (VV0 m) c).arrAt w cfg0.N = VV1 m c (Pipeline.arrRef spec0 w) :=
  (W1_arr m c w).symm
theorem hrest0 (c : Dev nD) : ∀ b, b ∉ Finset.univ.image (Pipeline.arrRef spec0) → VV1 m c b = VV0 m c b :=
  fun b hb => W1_of_ne m c b fun w e => hb (Finset.mem_image.mpr ⟨w, Finset.mem_univ _, e⟩)

/-- After the host operations (the aggregation region's entry). -/
abbrev W2 : Dev nD → Valuation τ sig (Elt F) := fun c => StableHlo.after hostOps1 (W1 m c)
abbrev VV2 : (c : Dev nD) → (b : Ref sig .tc) → Buf (Elt F) ((c : Thread nD τ).loc b) := fun c b => W2 m c b
/-- At the aggregation region's exit. -/
def W3 (c : Dev nD) : Valuation τ sig (Elt F) :=
  Pipeline.withArrays spec1 c (W2 m c) fun w => (dat1 (VV2 m) c).arrAt w cfg1.N
theorem W3_arr (c : Dev nD) (w : Fin cfg1.W) :
    W3 m c (Proc.devRef .tc (Pipeline.arrRef spec1 w)) = (dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VV3 : (c : Dev nD) → (b : Ref sig .tc) → Buf (Elt F) ((c : Thread nD τ).loc b) := fun c b => W3 m c b
theorem hF1 (c : Dev nD) (w : Fin cfg1.W) : (dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_writes_sub hostOps1 _ hostOps1_writes (by decide : main_arg0 ∉ hostOps1_W)
    _ = W0 m c (Proc.devRef .tc main_arg0) := W1_of_ne m c main_arg0 (by decide)
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (VV2 m) c).arrAt_in 0 rfl _).trans (A_eq1 (VV2 m) c 0))
    _ = W1 m c (Proc.devRef .tc main_arg1) := StableHlo.after_of_writes_sub hostOps1 _ hostOps1_writes (by decide : main_arg1 ∉ hostOps1_W)
    _ = W0 m c (Proc.devRef .tc main_arg1) := (W1_arr m c 0).trans (((dat0 (VV0 m) c).arrAt_in 0 rfl _).trans (A_eq0 (VV0 m) c 0))
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 3).trans (((dat1 (VV2 m) c).arrAt_in 3 rfl _).trans (A_eq1 (VV2 m) c 3))
    _ = W1 m c (Proc.devRef .tc main_arg2) := StableHlo.after_of_writes_sub hostOps1 _ hostOps1_writes (by decide : main_arg2 ∉ hostOps1_W)
    _ = W0 m c (Proc.devRef .tc main_arg2) := W1_of_ne m c main_arg2 (by decide)
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := (W3_arr m c 4).trans (((dat1 (VV2 m) c).arrAt_in 4 rfl _).trans (A_eq1 (VV2 m) c 4))
    _ = W1 m c (Proc.devRef .tc main_arg3) := StableHlo.after_of_writes_sub hostOps1 _ hostOps1_writes (by decide : main_arg3 ∉ hostOps1_W)
    _ = W0 m c (Proc.devRef .tc main_arg3) := W1_of_ne m c main_arg3 (by decide)
    _ = m ((c : Thread nD τ).loc main_arg3) := rfl

/-- The result array ends at what the aggregation's write-backs leave. -/
theorem W3_main_v6 (c : Dev nD) : W3 m c (Proc.devRef .tc main_v6) = (dat1 (VV2 m) c).arrAt 5 cfg1.N := W3_arr m c 5

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (VV0 m) c
  | ⟨1, _⟩ => fun c => dat1 (VV2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV0 m c) (VV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (VV2 m) c).Φ 0 from rfl]
    have h := hin1 (VV2 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (VV2 m) c).Φ (Fin.last cfg1.N) from rfl]
    have h := hout1 (VV2 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every final
    state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Hand

end
-- ==== Proof.DegreeRegionI.lean ====
/-
  The degree kernel's region (the first pallas_call): a grid of 4 × 4 points, point (b, i) reading the block of 1024 whole
  rows  adj (b, 1024·i …, ·)  and writing the 1024 row sums into the block  deg (b, 1024·i …, 0).
  Stated at a parameter `V`, the buffer contents the region is entered from: each window's block at a point, what the body
  leaves in the output's staging buffer (its one store, over the payload of the input block), the body's triple, the
  proof data (the input's buffer keeps its block, the output's holds the stored value, nothing else is touched) and the
  body obligation at every point.
-/
import proofs.«128174_j15762529976410_2_alg».proof.Proof.Gen.KernelIdeal.Launch
import proofs.«128174_j15762529976410_2_alg».proof.Proof.Gen.KernelIdeal.Skeleton
import proofs.«128174_j15762529976410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as rectangles. -/
abbrev rIn0 : Rect S1x1024x4096 := Rect.unit (s := S1x1024x4096) ![0, 0, 0] S1x1024x4096.size inb_S1x1024x4096_S1x1024x4096_0_0_0
abbrev rOut0 : Rect S1x1024x1 := Rect.unit (s := S1x1024x1) ![0, 0, 0] S1x1024x1.size inb_S1x1024x1_S1x1024x1_0_0_0

/-- What the body leaves in the output's staging buffer: its one store, of the row sums of the input block. -/
def out0_1 (x0 : Vec F S1x1024x4096 .f32) : Vec F S1x1024x1 .f32 :=
  View.canon [⟨rOut0, k0_pay1 (View.ld x0 rIn0)⟩]

/-- The one store covers the buffer. -/
theorem cover0_1 (p0 : Vec F S1x1024x1 .f32) (y : S1x1024x1.Idx) :
    ∃ pc ∈ ([⟨rOut0, p0⟩] : List (View.Piece (Elt F) S1x1024x1 .f32)), y ∈ pc.1.set :=
  View.cover_of_tiled [⟨rOut0, p0⟩] S1x1024x1.size (by rfl) y

set_option maxHeartbeats 1000000 in
/-- The body on whole staging memrefs, the input's at contents `x0` and the output's at anything, runs to the continuation
    holding the input's as it was and the output's at `out0_1 x0`. -/
theorem sound_kernel0 (c : Dev nD) (E : Set ℕ) (i : grid0.Coords) (arg2 : Memref sig .tc .vmem S1x1024x4096 .f32) (harg2 : arg2.IsWhole) (arg3 : Memref sig .tc .vmem S1x1024x1 .f32) (harg3 : arg3.IsWhole)
    (x0 : Vec F S1x1024x4096 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__degree_kernel i arg2 harg2 arg3 harg3) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the degree pipeline on core `c`: the arrays as the region finds them; after the body at point `t`
    the input's buffer at its block and the output's at the row sums of that block; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the degree pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.AggSharedI.lean ====
/-
  The aggregation kernel's region (the second pallas_call): a grid of 4 × 4 × 2 points; point (b, i, j) reads the block
  adj (b, 1024·i …, 2048·j …), the block of scaled features xs (b, 2048·j …, ·), the degree block (b, 1024·i …, 0), the weights
  and the bias, and keeps a 1024 × 128 accumulator in a scratch buffer of its own from one point to the next: zeroed where
  j = 0, increased by the block product at every point, and where j = 1 scaled row by row, multiplied by the weights,
  shifted by the bias and stored into the output block (b, 1024·i …, ·), which is written back at those points only.
  Here: what every run of the body is stated over — each window's block at a point, the two branch conditions in closed form
  (decided over the grid: j = 0 at the even points, j = 1 at the odd ones), where the output window is idle, the staging and
  scratch memrefs, and the shape of the region's invariant (the scoped buffers the region does not stage, the scratch
  among them, and the generator register).
-/
import proofs.«128174_j15762529976410_2_alg».proof.Proof.Gen.KernelIdeal.Launch
import proofs.«128174_j15762529976410_2_alg».proof.Proof.Gen.KernelIdeal.Skeleton
import proofs.«128174_j15762529976410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not (where it is not fetched its
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first branch's condition (the accumulator is zeroed), from the grid coordinates: j = 0. -/
abbrev cond1_0 (i : grid1.Coords) : Prop := (Scalar.cmpi .ne (Scalar.extui (Scalar.cmpi .eq (BitVec.ofNat 32 (i 2).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second branch's condition (the output block is computed and stored): j = 1. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At the even points the output window is idle: the body stores nothing into it, -/
theorem idleAt1_5_A : ∀ t : Fin cfg1.N, cond1_0 (grid1.coords t) → ¬cond1_1 (grid1.coords t) → cfg1.idle 5 (grid1.coords t) = true := by decide +kernel
/-- and the pipeline does not write its block back. -/
theorem noFlush1_5_A : ∀ t : Fin cfg1.N, cond1_0 (grid1.coords t) → ¬cond1_1 (grid1.coords t) → (cfg1.win 5).flush t = false := by decide +kernel
/-- At the odd points it is live. -/
theorem liveAt1_5_B : ∀ t : Fin cfg1.N, ¬cond1_0 (grid1.coords t) → cond1_1 (grid1.coords t) → cfg1.idle 5 (grid1.coords t) = false := by decide +kernel

/-! ## The memrefs the body is called with -/

/-- One staging buffer of the output window, through which its contents are stated. -/
abbrev VO1_5 : View sig .tc .vmem S1x1024x128 .f32 := (Memref.whole cc1_stg5_0 : Memref sig .tc .vmem S1x1024x128 .f32).view
abbrev ms1_0 (t : Fin cfg1.N) : Memref sig .tc .vmem S1x1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x128 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows and carried between points. -/
abbrev scM1 : Memref sig .tc .vmem S1024x128 .f32 := Memref.whole cc1_scratch0
abbrev VS1 : View sig .tc .vmem S1024x128 .f32 := scM1.view

/-- The scoped buffers the region does not stage, other than the accumulator: the degree call's four staging buffers,
    each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The invariant before the first point, with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Hand

end
-- ==== Proof.AggRunAI.lean ====
/-
  The aggregation body run whole at an even point (j = 0): the accumulator is stored whole with zeros, then with the zeros
  plus the block product; the output's staging buffer is handed back untouched. The pieces the accumulator ends with are
  what the run finds.
-/
import proofs.«128174_j15762529976410_2_alg».proof.Proof.AggSharedI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At an even point: on whole staging memrefs, the inputs' at their contents, the output's at contents `xi5` handed back
    untouched, the accumulator's at anything, the body runs to the continuation holding the inputs' as they were and the
    accumulator with its pieces written. -/
noncomputable def kernelRun1_A (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : cond1_0 i) (hc1 : ¬cond1_1 i)
    (x0 : Vec F S1x1024x2048 .f32) (x1 : Vec F S1x2048x128 .f32) (x2 : Vec F S1x1024x1 .f32) (x3 : Vec F S128x128 .f32) (x4 : Vec F S128 .f32) :
    Σ' (L5 : List (View.Piece (Elt F) S1x1024x128 .f32)), { LS0 : List (View.Piece (Elt F) S1024x128 .f32) //
      ∀ (xi5 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__agg_kernel i arg3 harg3 arg4 harg4 arg5 harg5 arg6 harg6 arg7 harg7 arg8 harg8 arg9 harg9) K } := by
  refine ⟨[], ?_, fun xi5 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.AggRunBI.lean ====
/-
  The aggregation body run whole at an odd point (j = 1): the accumulator, at the contents the point before left, is
  stored whole with itself plus the block product; then the degree block is shifted and its reciprocal square root taken,
  the accumulator scaled row by row, multiplied by the weights, shifted by the bias and stored whole into the output's
  staging buffer. The pieces the output and the accumulator end with are what the run finds.
-/
import proofs.«128174_j15762529976410_2_alg».proof.Proof.AggSharedI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At an odd point: on whole staging memrefs, the inputs' at their contents, the output's at anything, the accumulator's
    at the contents `xs0` the point before left, the body runs to the continuation holding the inputs' as they were and
    the output and the accumulator with their pieces written. -/
noncomputable def kernelRun1_B (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : ¬cond1_0 i) (hc1 : cond1_1 i)
    (x0 : Vec F S1x1024x2048 .f32) (x1 : Vec F S1x2048x128 .f32) (x2 : Vec F S1x1024x1 .f32) (x3 : Vec F S128x128 .f32) (x4 : Vec F S128 .f32) (xs0 : Vec F S1024x128 .f32) :
    Σ' (L5 : List (View.Piece (Elt F) S1x1024x128 .f32)), { LS0 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__agg_kernel i arg3 harg3 arg4 harg4 arg5 harg5 arg6 harg6 arg7 harg7 arg8 harg8 arg9 harg9) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Hand

end
-- ==== Proof.AggRegionI.lean ====
/-
  The aggregation region's proof data and body obligation. What the accumulator and the output's staging buffer hold
  after each point is defined by recursion on the point: an even point leaves the accumulator at zeros plus its block
  product; an odd point leaves it at what the even point before left plus its own block product, and leaves the output's
  buffer at the scaled, projected, shifted accumulator. The region's invariant carries the accumulator at those contents
  from one point to the next (before the first point, and after the last, it is at anything).
-/
import proofs.«128174_j15762529976410_2_alg».proof.Proof.AggRunAI
import proofs.«128174_j15762529976410_2_alg».proof.Proof.AggRunBI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- An even point stores nothing into the output's buffer: a placeholder nothing consults (the window is idle there). -/
def out1_A_5 (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : cond1_0 i) (hc1 : ¬cond1_1 i)
    (x0 : Vec F S1x1024x2048 .f32) (x1 : Vec F S1x2048x128 .f32) (x2 : Vec F S1x1024x1 .f32) (x3 : Vec F S128x128 .f32) (x4 : Vec F S128 .f32) : Vec F S1x1024x128 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- An even point's stores into the accumulator cover it. -/
theorem scover1_A (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : cond1_0 i) (hc1 : ¬cond1_1 i)
    (x0 : Vec F S1x1024x2048 .f32) (x1 : Vec F S1x2048x128 .f32) (x2 : Vec F S1x1024x1 .f32) (x3 : Vec F S128x128 .f32) (x4 : Vec F S128 .f32) (y : S1024x128.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S1024x128.size (by sl_kernel_rfl) y

/-- What an even point leaves in the accumulator. -/
def sout1_A (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : cond1_0 i) (hc1 : ¬cond1_1 i)
    (x0 : Vec F S1x1024x2048 .f32) (x1 : Vec F S1x2048x128 .f32) (x2 : Vec F S1x1024x1 .f32) (x3 : Vec F S128x128 .f32) (x4 : Vec F S128 .f32) : Vec F S1024x128 .f32 :=
  VS1.read (Elt F) (VS1.writes (Elt F) VS1.junk (kernelRun1_A c i arg3 harg3 arg4 harg4 arg5 harg5 arg6 harg6 arg7 harg7 arg8 harg8 arg9 harg9 hc0 hc1 x0 x1 x2 x3 x4).2.1)

/-- An odd point's one store into the output's buffer covers it. -/
theorem cover1_B_5 (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : ¬cond1_0 i) (hc1 : cond1_1 i)
    (x0 : Vec F S1x1024x2048 .f32) (x1 : Vec F S1x2048x128 .f32) (x2 : Vec F S1x1024x1 .f32) (x3 : Vec F S128x128 .f32) (x4 : Vec F S128 .f32) (xs0 : Vec F S1024x128 .f32) (y : S1x1024x128.Idx) :
    ∃ pc ∈ (kernelRun1_B c i arg3 harg3 arg4 harg4 arg5 harg5 arg6 harg6 arg7 harg7 arg8 harg8 arg9 harg9 hc0 hc1 x0 x1 x2 x3 x4 xs0).1, y ∈ pc.1.set :=
  View.cover_of_tiledL (kernelRun1_B c i arg3 harg3 arg4 harg4 arg5 harg5 arg6 harg6 arg7 harg7 arg8 harg8 arg9 harg9 hc0 hc1 x0 x1 x2 x3 x4 xs0).1 S1x1024x128.size (by sl_kernel_rfl) y

/-- What an odd point leaves in the output's buffer. -/
def out1_B_5 (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : ¬cond1_0 i) (hc1 : cond1_1 i)
    (x0 : Vec F S1x1024x2048 .f32) (x1 : Vec F S1x2048x128 .f32) (x2 : Vec F S1x1024x1 .f32) (x3 : Vec F S128x128 .f32) (x4 : Vec F S128 .f32) (xs0 : Vec F S1024x128 .f32) : Vec F S1x1024x128 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- An odd point's store into the accumulator covers it. -/
theorem scover1_B (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : ¬cond1_0 i) (hc1 : cond1_1 i)
    (x0 : Vec F S1x1024x2048 .f32) (x1 : Vec F S1x2048x128 .f32) (x2 : Vec F S1x1024x1 .f32) (x3 : Vec F S128x128 .f32) (x4 : Vec F S128 .f32) (xs0 : Vec F S1024x128 .f32) (y : S1024x128.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S1024x128.size (by sl_kernel_rfl) y

/-- What an odd point leaves in the accumulator. -/
def sout1_B (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : ¬cond1_0 i) (hc1 : cond1_1 i)
    (x0 : Vec F S1x1024x2048 .f32) (x1 : Vec F S1x2048x128 .f32) (x2 : Vec F S1x1024x1 .f32) (x3 : Vec F S128x128 .f32) (x4 : Vec F S128 .f32) (xs0 : Vec F S1024x128 .f32) : Vec F S1024x128 .f32 :=
  VS1.read (Elt F) (VS1.writes (Elt F) VS1.junk (kernelRun1_B c i arg3 harg3 arg4 harg4 arg5 harg5 arg6 harg6 arg7 harg7 arg8 harg8 arg9 harg9 hc0 hc1 x0 x1 x2 x3 x4 xs0).2.1)

section Region1

variable (V : (c : Dev nD) → (b : Ref sig .tc) → Buf (Elt F) ((c : Thread nD τ).loc b))

/-! ## What the output's buffer and the accumulator hold after each point -/

/-- The pair (output's buffer, accumulator) an even point `t` leaves. -/
def pairA (c : Dev nD) (t : Fin cfg1.N) (h0 : t.val % 2 = 0) : Vec F S1x1024x128 .f32 × Vec F S1024x128 .f32 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => by have h' := (hcond1_1 t).mp h; omega) (iblk1 V c 0 t) (iblk1 V c 1 t) (iblk1 V c 2 t) (iblk1 V c 3 t) (iblk1 V c 4 t),
   sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => by have h' := (hcond1_1 t).mp h; omega) (iblk1 V c 0 t) (iblk1 V c 1 t) (iblk1 V c 2 t) (iblk1 V c 3 t) (iblk1 V c 4 t))

/-- The pair an odd point `t` leaves, over the accumulator `xs0` the point before left. -/
def pairB (c : Dev nD) (t : Fin cfg1.N) (h1 : t.val % 2 = 1) (xs0 : Vec F S1024x128 .f32) : Vec F S1x1024x128 .f32 × Vec F S1024x128 .f32 :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => by have h' := (hcond1_0 t).mp h; omega) ((hcond1_1 t).mpr h1) (iblk1 V c 0 t) (iblk1 V c 1 t) (iblk1 V c 2 t) (iblk1 V c 3 t) (iblk1 V c 4 t) xs0,
   sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => by have h' := (hcond1_0 t).mp h; omega) ((hcond1_1 t).mpr h1) (iblk1 V c 0 t) (iblk1 V c 1 t) (iblk1 V c 2 t) (iblk1 V c 3 t) (iblk1 V c 4 t) xs0)

/-- The accumulation, by recursion on the position: the case the point is in, an odd point over what the point before left. -/
def outsAt1 (c : Dev nD) : (n : ℕ) → n < cfg1.N → Vec F S1x1024x128 .f32 × Vec F S1024x128 .f32
  | 0, hn => pairA V c ⟨0, hn⟩ (Nat.zero_mod _)
  | n + 1, hn =>
    if h0 : (n + 1) % 2 = 0 then pairA V c ⟨n + 1, hn⟩ h0
    else pairB V c ⟨n + 1, hn⟩ (Nat.mod_two_ne_zero.mp h0) (outsAt1 c n (Nat.lt_of_succ_lt hn)).2

theorem outsAt1_A (c : Dev nD) (t : Fin cfg1.N) (h0 : t.val % 2 = 0) :
    outsAt1 V c t.val t.isLt = pairA V c t h0 := by
  obtain ⟨n, hn⟩ := t
  cases n with
  | zero => exact rfl
  | succ n => exact (dif_pos h0).trans rfl

theorem outsAt1_B (c : Dev nD) (t : Fin cfg1.N) (h0 : ¬t.val % 2 = 0) :
    outsAt1 V c t.val t.isLt = pairB V c t (Nat.mod_two_ne_zero.mp h0) (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The invariant -/

abbrev oA (c : Dev nD) : sProp 𝕄 := iprop(∃ f : Buf (Elt F) ((c : Thread nD τ).loc cc0_stg0_0), ((c : Thread nD τ).loc cc0_stg0_0) ↦{fullShare} f)
abbrev oB (c : Dev nD) : sProp 𝕄 := iprop(∃ f : Buf (Elt F) ((c : Thread nD τ).loc cc0_stg0_1), ((c : Thread nD τ).loc cc0_stg0_1) ↦{fullShare} f)
abbrev oC (c : Dev nD) : sProp 𝕄 := iprop(∃ f : Buf (Elt F) ((c : Thread nD τ).loc cc0_stg1_0), ((c : Thread nD τ).loc cc0_stg1_0) ↦{fullShare} f)
abbrev oD (c : Dev nD) : sProp 𝕄 := iprop(∃ f : Buf (Elt F) ((c : Thread nD τ).loc cc0_stg1_1), ((c : Thread nD τ).loc cc0_stg1_1) ↦{fullShare} f)

theorem PhiA1_eq' (c : Dev nD) :
    (Pipeline.ΦA spec1 c : sProp 𝕄) = iprop(iprop(oA c ∗ oB c ∗ oC c ∗ oD c ∗ (∃ d, owns (c : Thread nD τ) scM1 fullShare d)) ∗ (∃ r, prngReg c r)) :=
  PhiA1_eq c

/-- The region's invariant before position `n`: before the first point every scoped buffer the region does not stage at
    anything; afterwards the same with the accumulator at what the point before left. -/
def PhiS1 (c : Dev nD) : (n : ℕ) → n ≤ cfg1.N → sProp 𝕄
  | 0, _ => Pipeline.ΦA spec1 c
  | n + 1, hn => iprop(iprop(oA c ∗ oB c ∗ oC c ∗ oD c ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(oA c ∗ oB c ∗ oC c ∗ oD c ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop(oA c ∗ oB c ∗ oC c ∗ oD c ∗ owns (c : Thread nD τ) scM1 fullShare ((outsAt1 V c (n - 1) (by omega)).2)) ∗ (∃ r, prngReg c r)) := by
  cases n with
  | zero => exact absurd rfl hz
  | succ n => rfl

/-! ## The proof data -/

/-- The proof data of the aggregation pipeline on core `c`: the arrays as the region finds them; after the body at point
    `t` each input's buffer at its block and the output's at the accumulation's first component; the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the parity of the point says which case it is in; the
    invariant hands the body the accumulator at what the point before left (at anything at the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 2 = 0
  · rw [Dat.leavesExact_idle (dat1 V c) 5 t (idleAt1_5_A t ((hcond1_0 t).mpr h0) (fun h => by have h' := (hcond1_1 t).mp h; omega)) (noFlush1_5_A t ((hcond1_0 t).mpr h0) (fun h => by have h' := (hcond1_1 t).mp h; omega))]
    rw [outsAt1_A V c t h0]
    unfold pairA sout1_A; (try dsimp only)
    by_cases hz : t.val = 0
    ·
        rw [PhiS1_castSucc V c t, PhiS1_zero V c _ _ hz, PhiA1_eq']
        iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => by have h' := (hcond1_1 t).mp h; omega) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    ·
        rw [PhiS1_castSucc V c t, PhiS1_pos V c _ _ hz]
        iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => by have h' := (hcond1_1 t).mp h; omega) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · rw [show (dat1 V c).leavesExact 5 t = owns (c : Thread nD τ) (ms1_5 t) fullShare ((dat1 V c).after 5 t) from by
      unfold Dat.leavesExact; rw [liveAt1_5_B t (fun h => h0 ((hcond1_0 t).mp h)) ((hcond1_1 t).mpr (Nat.mod_two_ne_zero.mp h0))], after1_5]
    rw [outsAt1_B V c t h0]
    unfold pairB out1_B_5 sout1_B; (try dsimp only)
    by_cases hz : t.val = 0
    · exfalso; omega
    ·
        rw [PhiS1_castSucc V c t, PhiS1_pos V c _ _ hz]
        iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) ((hcond1_1 t).mpr (Nat.mod_two_ne_zero.mp h0)) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_B c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_B_5 c _ _ _ _ _ _ _ _ _ _ _ _ _ _ _ _ _ _ _ _ _ _ _)

/-- The body obligation of the aggregation pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq']
  iintro ⟨⟨HA, HB, HC, HD, HS0⟩, Hg⟩
  isplitl [HA HB HC HD HS0]
  · isplitl [HA]; · iexact HA
    isplitl [HB]; · iexact HB
    isplitl [HC]; · iexact HC
    isplitl [HD]; · iexact HD
    iexists _; iexact HS0
  iexact Hg

theorem hout1 (c : Dev nD) : (dat1 V c).Φ (Fin.last cfg1.N) ⊢ Pipeline.ΦA spec1 c :=
  Phi_out1 V c _ (by rw [Fin.val_last]; have : cfg1.N = 32 := N_1; omega)

end Region1

end Cert.KernelIdeal.Hand

end
-- ==== Proof.RunI.lean ====
/-
  The run of the whole program: the degree region, the six host operations between the regions (the shift, the
  reciprocal square root, its broadcast along the features, the scaling of the features), the aggregation region.
  The buffer contents at each boundary are a fold from the launch memory: a region leaves each of its arrays at what its
  write-backs leave and every other buffer as entered; the host stretch is the fold of its operations. Each region is a
  record over the state "every unscoped buffer at the boundary's contents, the generator register at some state, nothing
  owed"; the launch over the three segments ends with every unscoped buffer at the last boundary's contents, from which
  the argument arrays are read back to their launch contents and the result array to what the aggregation's write-backs leave.
-/
import proofs.«128174_j15762529976410_2_alg».proof.Proof.DegreeRegionI
import proofs.«128174_j15762529976410_2_alg».proof.Proof.AggRegionI
import proofs.«128174_j15762529976410_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch (the degree region's entry). -/
abbrev W0 : Dev nD → Valuation τ sig (Elt F) := fun c b => m (c, b)
abbrev VV0 : (c : Dev nD) → (b : Ref sig .tc) → Buf (Elt F) ((c : Thread nD τ).loc b) := fun c b => W0 m c b
/-- At the degree region's exit: its arrays at what the pipeline leaves, every other buffer as entered. -/
def W1 (c : Dev nD) : Valuation τ sig (Elt F) :=
  Pipeline.withArrays spec0 c (W0 m c) fun w => (dat0 (VV0 m) c).arrAt w cfg0.N
theorem W1_arr (c : Dev nD) (w : Fin cfg0.W) :
    W1 m c (Proc.devRef .tc (Pipeline.arrRef spec0 w)) = (dat0 (VV0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VV1 : (c : Dev nD) → (b : Ref sig .tc) → Buf (Elt F) ((c : Thread nD τ).loc b) := fun c b => W1 m c b
theorem hF0 (c : Dev nD) (w : Fin cfg0.W) : (dat0 (VV0 m) c).arrAt w cfg0.N = VV1 m c (Pipeline.arrRef spec0 w) :=
  (W1_arr m c w).symm
theorem hrest0 (c : Dev nD) : ∀ b, b ∉ Finset.univ.image (Pipeline.arrRef spec0) → VV1 m c b = VV0 m c b :=
  fun b hb => W1_of_ne m c b fun w e => hb (Finset.mem_image.mpr ⟨w, Finset.mem_univ _, e⟩)

/-- After the host operations (the aggregation region's entry). -/
abbrev W2 : Dev nD → Valuation τ sig (Elt F) := fun c => StableHlo.after hostOps1 (W1 m c)
abbrev VV2 : (c : Dev nD) → (b : Ref sig .tc) → Buf (Elt F) ((c : Thread nD τ).loc b) := fun c b => W2 m c b
/-- At the aggregation region's exit. -/
def W3 (c : Dev nD) : Valuation τ sig (Elt F) :=
  Pipeline.withArrays spec1 c (W2 m c) fun w => (dat1 (VV2 m) c).arrAt w cfg1.N
theorem W3_arr (c : Dev nD) (w : Fin cfg1.W) :
    W3 m c (Proc.devRef .tc (Pipeline.arrRef spec1 w)) = (dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VV3 : (c : Dev nD) → (b : Ref sig .tc) → Buf (Elt F) ((c : Thread nD τ).loc b) := fun c b => W3 m c b
theorem hF1 (c : Dev nD) (w : Fin cfg1.W) : (dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_writes_sub hostOps1 _ hostOps1_writes (by decide : main_arg0 ∉ hostOps1_W)
    _ = W0 m c (Proc.devRef .tc main_arg0) := W1_of_ne m c main_arg0 (by decide)
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (VV2 m) c).arrAt_in 0 rfl _).trans (A_eq1 (VV2 m) c 0))
    _ = W1 m c (Proc.devRef .tc main_arg1) := StableHlo.after_of_writes_sub hostOps1 _ hostOps1_writes (by decide : main_arg1 ∉ hostOps1_W)
    _ = W0 m c (Proc.devRef .tc main_arg1) := (W1_arr m c 0).trans (((dat0 (VV0 m) c).arrAt_in 0 rfl _).trans (A_eq0 (VV0 m) c 0))
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 3).trans (((dat1 (VV2 m) c).arrAt_in 3 rfl _).trans (A_eq1 (VV2 m) c 3))
    _ = W1 m c (Proc.devRef .tc main_arg2) := StableHlo.after_of_writes_sub hostOps1 _ hostOps1_writes (by decide : main_arg2 ∉ hostOps1_W)
    _ = W0 m c (Proc.devRef .tc main_arg2) := W1_of_ne m c main_arg2 (by decide)
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := (W3_arr m c 4).trans (((dat1 (VV2 m) c).arrAt_in 4 rfl _).trans (A_eq1 (VV2 m) c 4))
    _ = W1 m c (Proc.devRef .tc main_arg3) := StableHlo.after_of_writes_sub hostOps1 _ hostOps1_writes (by decide : main_arg3 ∉ hostOps1_W)
    _ = W0 m c (Proc.devRef .tc main_arg3) := W1_of_ne m c main_arg3 (by decide)
    _ = m ((c : Thread nD τ).loc main_arg3) := rfl

/-- The result array ends at what the aggregation's write-backs leave. -/
theorem W3_main_v6 (c : Dev nD) : W3 m c (Proc.devRef .tc main_v6) = (dat1 (VV2 m) c).arrAt 5 cfg1.N := W3_arr m c 5

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (VV0 m) c
  | ⟨1, _⟩ => fun c => dat1 (VV2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV0 m c) (VV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (VV2 m) c).Φ 0 from rfl]
    have h := hin1 (VV2 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (VV2 m) c).Φ (Fin.last cfg1.N) from rfl]
    have h := hout1 (VV2 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every final
    state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Hand

end
-- ==== Proof.Spec.lean ====
/-
  A graph-convolution layer  Z = D^(-1/2) A D^(-1/2) X W + b  on a batch of 4 graphs of 4096 nodes, 128 features in and out,
  written twice as a function of the four argument arrays, index by index, on the extended reals.

  Both sides share the degree  deg b n = ∑ m, adj (b, n, m)  and the shift ε (the f32 word of 1e-6).

  * `kernelVal`: the node factor is the reciprocal square root  dK = rsqrt (deg + ε).  The features are scaled first,
    xs (b, m, f) = dK b m · x (b, m, f); the aggregation  ∑ m, adj (b, n, m) · xs (b, m, f)  is then scaled by the row's
    factor dK b n, multiplied by the weights and shifted by the bias.
  * `refVal`: the node factor is the power  dR = (deg + ε) ^ (-1/2).  The adjacency is normalised first,
    (dR b n · adj (b, n, m)) · dR b m, then contracted with the features, the weights, and shifted by the bias.

  On the positive reals rsqrt and the power -1/2 are one function, and once every factor is a real number the two
  arrangements differ by commutativity and by moving the row's factor across the sum over m (distributivity, which
  needs real factors: it fails at the infinities).
-/
import Idealize.ShloMosaic.PureOps.Ideal
import Idealize.ShloMosaic.Lib.ValueIdx

noncomputable section

namespace Cert.Gcn

open Idealize.ShloMosaic Idealize.ShloMosaic.ValueIdx

/-- The shift under the root: the f32 word of 1e-6 as an extended real. -/
def eps : EReal := Ideal.ofBits .f32 0x358637BD#32

/-- The reference's exponent: the f32 word of -0.5 as an extended real. -/
def negHalf : EReal := Ideal.ofBits .f32 0xBF000000#32

variable (x : (⟨3, ![4, 4096, 128]⟩ : Shape).Idx → EReal) (adj : (⟨3, ![4, 4096, 4096]⟩ : Shape).Idx → EReal)
  (w : (⟨2, ![128, 128]⟩ : Shape).Idx → EReal) (bias : (⟨1, ![128]⟩ : Shape).Idx → EReal)

/-- The degree of node `n` of graph `b`: its row of the adjacency summed. -/
def deg (b : Fin 4) (n : Fin 4096) : EReal := ∑ m : Fin 4096, adj (ix3 b n m)

/-- The kernel's node factor: the reciprocal square root of the shifted degree. -/
def dK (b : Fin 4) (n : Fin 4096) : EReal := Ideal.rsqrt (deg adj b n + eps)

/-- The reference's node factor: the shifted degree to the power -1/2. -/
def dR (b : Fin 4) (n : Fin 4096) : EReal := Ideal.pow (deg adj b n + eps) negHalf

/-- The kernel's aggregated features: the adjacency row against the pre-scaled features, then the row's factor. -/
def aggK (b : Fin 4) (n : Fin 4096) (f : Fin 128) : EReal :=
  (∑ m : Fin 4096, adj (ix3 b n m) * (dK adj b m * x (ix3 b m f))) * dK adj b n

/-- The kernel's result at (b, n, o). -/
def kernelAt (b : Fin 4) (n : Fin 4096) (o : Fin 128) : EReal :=
  (∑ f : Fin 128, aggK x adj b n f * w (ix2 f o)) + bias (ix1 o)

/-- The kernel's result array. -/
def kernelVal : (⟨3, ![4, 4096, 128]⟩ : Shape).Idx → EReal := fun i => kernelAt x adj w bias (i 0) (i 1) (i 2)

/-- The reference's aggregated features: the normalised adjacency row against the features. -/
def aggR (b : Fin 4) (n : Fin 4096) (f : Fin 128) : EReal :=
  ∑ m : Fin 4096, ((dR adj b n * adj (ix3 b n m)) * dR adj b m) * x (ix3 b m f)

/-- The reference's result at (b, n, o). -/
def refAt (b : Fin 4) (n : Fin 4096) (o : Fin 128) : EReal :=
  (∑ f : Fin 128, aggR x adj b n f * w (ix2 f o)) + bias (ix1 o)

/-- The reference's result array. -/
def refVal : (⟨3, ![4, 4096, 128]⟩ : Shape).Idx → EReal := fun i => refAt x adj w bias (i 0) (i 1) (i 2)

end Cert.Gcn

end
-- ==== Proof.Payloads.lean ====
/-
  The arithmetic of the two kernel bodies, read at an index, on the extended reals.

  Each body stores a value that is one pure term over the blocks it loaded.  Read at an index of the stored block, and
  at the ideal values (where a change of float format is the identity, a lane sum is a finite sum and a matrix-unit
  product into the zero accumulator is the sum of the operands' products), the four stored values are:

  * the degree body:  the block's row sum,  ∑ k, a (0, r, k)  at (0, r, 0);
  * the aggregation body's first store:  0  at every (r, f);
  * its second store:  the accumulator plus the partial product,  acc (r, f) + ∑ k, a (0, r, k) · x (0, k, f);
  * its last store:  (∑ f, (acc (r, f) · rsqrt (d (0, r, 0) + ε)) · w (f, o)) + bias (o)  at (0, r, o).

  The layout operations in between (a leading unit axis dropped or added, a vector kept as a column, a column or a row
  broadcast over a block) only move the index; each is read at an index written by its coordinates.
-/
import proofs.«128174_j15762529976410_2_alg».proof.Proof.Gen.KernelIdeal.Skeleton
import proofs.«128174_j15762529976410_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Gcn.Pay

open Idealize.ShloMosaic Idealize.ShloMosaic.ValueIdx Cert.KernelIdeal Cert.KernelIdeal.Gen

/-! ## A vector as a column, and a column over a block -/

/-- An `[a]` vector cast to the column `[a, 1]` reads, at `(i, u)`, the vector at `i`: both have row-major position `i`. -/
theorem col_of_vec {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`: the unit axis reads its one
    coordinate, the other axis keeps its own. -/
theorem col_to_block {a b : ℕ} {α : Type} (x : (⟨2, ![a, 1]⟩ : Shape).Idx → α) (h : (⟨2, ![a, 1]⟩ : Shape).Broadcasts ⟨2, ![a, b]⟩)
    (p : Fin a) (c : Fin b) : broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products at an entry

Both products have the plain dimension numbers: the left operand's axis 1 is contracted with the right operand's axis 0, no
batch axis.  Into the zero accumulator the entry `(r, c)` is the sum over the one contraction coordinate `k` of
`a (r, k) · b (k, c)`: the contraction index set is re-indexed by its one coordinate, and the operand indices at `(r, c)` and `k`
are `(r, k)` and `(k, c)`, coordinate by coordinate. -/

/-! ### `[1024, 2048] · [2048, 128]` -/

theorem agg_product_lhs0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem agg_product_lhs1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem agg_product_rhs0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem agg_product_rhs1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

theorem agg_product (a : FVec Ideal S1024x2048 .bf16) (b : FVec Ideal S2048x128 .bf16) (r : Fin 1024) (c : Fin 128) :
    matmul dot_S1024x2048_S2048x128_S1024x128_1_0_0_1_n_n none a b (constant (F := Ideal) S1024x128 .f32 0x00000000#32) (ix2 r c)
      = ∑ k : Fin 2048, a (ix2 r k) * b (ix2 k c) := by
  refine (Ideal.matmul_constant_zero_apply dot_S1024x2048_S2048x128_S1024x128_1_0_0_1_n_n none a b (ix2 r c)).trans ?_
  rw [← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 r c) ((contrEquiv1 dot_S1024x2048_S2048x128_S1024x128_1_0_0_1_n_n 2048 rfl rfl).symm k) = ix2 r k := funext fun x => Fin.ext (by
    match x with
    | ⟨0, _⟩ => exact agg_product_lhs0 _ _
    | ⟨1, _⟩ => exact (agg_product_lhs1 _ _).trans hk)
  have er : dot_S1024x2048_S2048x128_S1024x128_1_0_0_1_n_n.rhsIdx (ix2 r c) ((contrEquiv1 dot_S1024x2048_S2048x128_S1024x128_1_0_0_1_n_n 2048 rfl rfl).symm k) = ix2 k c := funext fun x => Fin.ext (by
    match x with
    | ⟨0, _⟩ => exact (agg_product_rhs0 _ _).trans hk
    | ⟨1, _⟩ => exact agg_product_rhs1 _ _)
  rw [el, er]

/-! ### `[1024, 128] · [128, 128]` -/

theorem weight_product_lhs0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem weight_product_lhs1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem weight_product_rhs0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem weight_product_rhs1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

theorem weight_product (a : FVec Ideal S1024x128 .bf16) (b : FVec Ideal S128x128 .bf16) (r : Fin 1024) (c : Fin 128) :
    matmul dot_S1024x128_S128x128_S1024x128_1_0_0_1_n_n none a b (constant (F := Ideal) S1024x128 .f32 0x00000000#32) (ix2 r c)
      = ∑ k : Fin 128, a (ix2 r k) * b (ix2 k c) := by
  refine (Ideal.matmul_constant_zero_apply dot_S1024x128_S128x128_S1024x128_1_0_0_1_n_n none a b (ix2 r c)).trans ?_
  rw [← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r c) ((contrEquiv1 dot_S1024x128_S128x128_S1024x128_1_0_0_1_n_n 128 rfl rfl).symm k) = ix2 r k := funext fun x => Fin.ext (by
    match x with
    | ⟨0, _⟩ => exact weight_product_lhs0 _ _
    | ⟨1, _⟩ => exact (weight_product_lhs1 _ _).trans hk)
  have er : dot_S1024x128_S128x128_S1024x128_1_0_0_1_n_n.rhsIdx (ix2 r c) ((contrEquiv1 dot_S1024x128_S128x128_S1024x128_1_0_0_1_n_n 128 rfl rfl).symm k) = ix2 k c := funext fun x => Fin.ext (by
    match x with
    | ⟨0, _⟩ => exact (weight_product_rhs0 _ _).trans hk
    | ⟨1, _⟩ => exact weight_product_rhs1 _ _)
  rw [el, er]

/-! ## The four stored values -/

/-- The degree body's store at `(0, r, 0)`: the sum of row `r` of the loaded block.  The lane sum starts from the zero word, so
    it is the bare sum over the lane coordinate; the casts around it drop the block's leading unit axis, keep the sums as a
    column and put the unit axis back. -/
theorem degree_block (v0 : Vec Ideal S1x1024x4096 .f32) (r : Fin 1024) :
    k0_pay1 (F := Ideal) v0 (ix3 (0 : Fin 1) r (0 : Fin 1)) = ∑ k : Fin 4096, v0 (ix3 (0 : Fin 1) r k) := by
  unfold k0_pay1
  refine (shapeCast_ab_1ab_apply _ shapeCasts_S1024x1_S1x1024x1 (0 : Fin 1) r (0 : Fin 1)).trans ?_
  refine (col_of_vec _ shapeCasts_S1024_S1024x1 r (0 : Fin 1)).trans ?_
  refine (Ideal.multiReduction_add_single _ 0x00000000#32 reduces_S1024x4096_S1024 (.inl rfl) rfl (ix1 r)).trans ?_
  refine Finset.sum_congr rfl fun (k : Fin 4096) _ => ?_
  have e : reduces_S1024x4096_S1024.lift (ix1 r) k = ix2 r k :=
    funext fun a => Fin.ext (by match a with | ⟨0, _⟩ => rfl | ⟨1, _⟩ => rfl)
  refine (congrArg _ e).trans ?_
  exact shapeCast_1ab_ab_apply v0 shapeCasts_S1x1024x4096_S1024x4096 r k

/-- The aggregation body's first store: the splat of the zero word, which is the extended real `0`. -/
theorem zero_block (r : Fin 1024) (f : Fin 128) : k1_pay1 (F := Ideal) (ix2 r f) = 0 := by
  unfold k1_pay1
  refine (congrFun (shapeCast_self _ shapeCasts_S1024x128_S1024x128) (ix2 r f)).trans ?_
  exact Ideal.ofBits_zero_f32

/-- The aggregation body's second store at `(r, f)`: the accumulator there plus the product of the adjacency block's row `r`
    with the feature block's column `f`.  The narrowing of both operands is the identity on extended reals, and each operand
    is its loaded block with the leading unit axis dropped. -/
theorem accumulate_block (v3 : Vec Ideal S1x1024x2048 .f32) (v6 : Vec Ideal S1x2048x128 .f32) (v9 : Vec Ideal S1024x128 .f32) (r : Fin 1024) (f : Fin 128) :
    k1_pay2 (F := Ideal) v3 v6 v9 (ix2 r f) = v9 (ix2 r f) + ∑ k : Fin 2048, v3 (ix3 (0 : Fin 1) r k) * v6 (ix3 (0 : Fin 1) k f) := by
  unfold k1_pay2
  refine (congrFun (shapeCast_self _ shapeCasts_S1024x128_S1024x128) (ix2 r f)).trans ?_
  refine (addf_apply _ _ _).trans ?_
  refine congrArg (v9 (ix2 r f) + ·) ?_
  refine (agg_product _ _ r f).trans ?_
  refine Finset.sum_congr rfl fun k _ => ?_
  refine congrArg₂ (· * ·) ?_ ?_
  · exact shapeCast_1ab_ab_apply v3 shapeCasts_S1x1024x2048_S1024x2048 r k
  · exact shapeCast_1ab_ab_apply v6 shapeCasts_S1x2048x128_S2048x128 k f

/-- The aggregation body's last store at `(0, r, o)`: the accumulator's row `r`, each entry scaled by the row's factor
    `rsqrt (d (0, r, 0) + ε)`, times column `o` of the weights, plus the bias at `o`.  The factor is a column broadcast over
    the block, the bias a row broadcast over it. -/
theorem output_block (v18 : Vec Ideal S1x1024x1 .f32) (v23 : Vec Ideal S1024x128 .f32) (v27 : Vec Ideal S128x128 .f32) (v30 : Vec Ideal S128 .f32) (r : Fin 1024) (o : Fin 128) :
    k1_pay3 (F := Ideal) v18 v23 v27 v30 (ix3 (0 : Fin 1) r o) = (∑ f : Fin 128, (v23 (ix2 r f) * Ideal.rsqrt (v18 (ix3 (0 : Fin 1) r (0 : Fin 1)) + Cert.Gcn.eps)) * v27 (ix2 f o)) + v30 (ix1 o) := by
  unfold k1_pay3
  refine (shapeCast_ab_1ab_apply _ shapeCasts_S1024x128_S1x1024x128 (0 : Fin 1) r o).trans ?_
  refine (addf_apply _ _ _).trans ?_
  refine congrArg₂ (· + ·) ?_ ?_
  · refine (weight_product _ _ r o).trans ?_
    refine Finset.sum_congr rfl fun f _ => ?_
    refine congrArg (· * v27 (ix2 f o)) ?_
    refine (mulf_apply _ _ _).trans ?_
    refine congrArg (v23 (ix2 r f) * ·) ?_
    refine (col_to_block _ broadcasts_S1024x1_S1024x128 r f).trans ?_
    refine congrArg Ideal.rsqrt ?_
    refine (addf_apply _ _ _).trans ?_
    refine congrArg (· + Cert.Gcn.eps) ?_
    exact shapeCast_1ab_ab_apply v18 shapeCasts_S1x1024x1_S1024x1 r (0 : Fin 1)
  · refine (broadcastTo_1b_ab_apply _ broadcasts_S1x128_S1024x128 r o).trans ?_
    exact shapeCast_a_1a_apply v30 shapeCasts_S128_S1x128 (0 : Fin 1) o

end Cert.Gcn.Pay

end
-- ==== Proof.DegreeValue.lean ====
/-
  The degree region's result, read: after the region the degree array holds, at (b, n, 0), the sum of row n of graph b of
  the adjacency. Point (b, i) writes back the row sums of its block of 1024 rows (the body's payload read at an index is
  the row sum of the loaded block; the loaded block is the adjacency read through the window's rectangle, which moves with
  the output's along the first two axes and spans the whole third), and the sixteen blocks tile the array.
-/
import proofs.«128174_j15762529976410_2_alg».proof.Proof.DegreeRegionI
import proofs.«128174_j15762529976410_2_alg».proof.Proof.Payloads
import proofs.«128174_j15762529976410_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem hz3' : (![0, 0, 0] : Fin 3 → Nat) = fun _ => 0 := funext fun a => by fin_cases a <;> rfl

/-- The degree array of an adjacency array: at (b, n, 0) the sum of row n of graph b. -/
def degArr (adj : S4x4096x4096.Idx → EReal) : S4x4096x1.Idx → EReal := fun i => Cert.Gcn.deg adj (i 0) (i 1)

theorem degArr_apply (adj : S4x4096x4096.Idx → EReal) (b : Fin 4) (n : Fin 4096) (z : Fin 1) :
    degArr adj (ix3 b n z) = Cert.Gcn.deg adj b n := rfl

/-- The printed index maps, decided over the grid: the adjacency window moves with the degree window along the first two
    axes, both stay at block 0 of the third, and the block indices stay in their ranges. -/
theorem idx_facts0 : ∀ t : Fin cfg0.N, win0_0.index t (0 : Fin 3) = win0_1.index t (0 : Fin 3)
    ∧ win0_0.index t (1 : Fin 3) = win0_1.index t (1 : Fin 3)
    ∧ win0_0.index t (2 : Fin 3) = 0 ∧ win0_1.index t (2 : Fin 3) = 0
    ∧ win0_1.index t (0 : Fin 3) ≤ 3 ∧ win0_1.index t (1 : Fin 3) ≤ 3 :=
  (by decide +kernel : ∀ t : Fin grid0.N, _)

/-- Every block of the degree array is some point's. -/
theorem idx_onto0 : ∀ (q0 : Fin 4) (q1 : Fin 4), ∃ t : Fin cfg0.N, win0_1.index t = ![q0.val, q1.val, 0] :=
  (by decide +kernel : ∀ (q0 : Fin 4) (q1 : Fin 4), ∃ t : Fin grid0.N, win0_1.index t = ![q0.val, q1.val, 0])

section
variable (V : (c : Dev nD) → (b : Ref sig .tc) → Buf (Elt Ideal) ((c : Thread nD τ).loc b))

/-- What point `t` writes back is block `t` of the degree array of the adjacency as the region finds it. -/
theorem flushed0_eq (c : Dev nD) (t : Fin cfg0.N) :
    (dat0 V c).flushed 1 t = ((cfg0.win 1).blk t).view.read (Elt Ideal) (degArr (V c main_arg1)) := by
  show (cfg0.win 1).cut (grid0.coords t) ((dat0 V c).after 1 t) = _
  rw [after0_1]
  unfold out0_1
  rw [View.canon_unit_zero (S := S1x1024x1) hz3']
  simp only [View.ld_unit_zero (S := S1x1024x4096) hz3']
  obtain ⟨e0, e1, e2, e3, e4, e5⟩ := idx_facts0 t
  funext j
  obtain ⟨r, rfl⟩ : ∃ r : Fin 1024, j = ix3 (0 : Fin 1) r (0 : Fin 1) :=
    ⟨j 1, funext fun a => match a with
      | ⟨0, _⟩ => Fin.ext (by have h : (j 0).val < 1 := (j 0).isLt; show (j 0).val = 0; omega)
      | ⟨1, _⟩ => rfl
      | ⟨2, _⟩ => Fin.ext (by have h : (j 2).val < 1 := (j 2).isLt; show (j 2).val = 0; omega)⟩
  refine (Cert.Gcn.Pay.degree_block (iblk0 V c 0 t) r).trans ?_
  let adj : S4x4096x4096.Idx → EReal := V c main_arg1
  show (∑ k : Fin 4096, adj (((cfg0.win 0).blk t).view.emb (ix3 (0 : Fin 1) r k)))
    = ∑ k : Fin 4096, adj (ix3 ((((cfg0.win 1).blk t).view.emb (ix3 (0 : Fin 1) r (0 : Fin 1))) 0) ((((cfg0.win 1).blk t).view.emb (ix3 (0 : Fin 1) r (0 : Fin 1))) 1) k)
  refine Finset.sum_congr rfl fun k _ => ?_
  refine congrArg adj ?_
  funext a; apply Fin.ext
  match a with
  | ⟨0, _⟩ => show win0_0.index t (0 : Fin 3) * 1 + 1 * 0 = win0_1.index t (0 : Fin 3) * 1 + 1 * 0; omega
  | ⟨1, _⟩ => show win0_0.index t (1 : Fin 3) * 1024 + 1 * r.val = win0_1.index t (1 : Fin 3) * 1024 + 1 * r.val; omega
  | ⟨2, _⟩ => show win0_0.index t (2 : Fin 3) * 4096 + 1 * k.val = k.val; omega

/-- An index of the degree array is in point `t`'s block iff each coordinate is in the block's range on its axis. -/
theorem mem_blk0 (t : Fin cfg0.N) (i : S4x4096x1.Idx) :
    i ∈ ((cfg0.win 1).blk t).view.set ↔ ∀ a : Fin 3, win0_1.index t a * S1x1024x1.size a ≤ (i a).val ∧ (i a).val < win0_1.index t a * S1x1024x1.size a + S1x1024x1.size a := by
  show i ∈ ((View.whole main_v0).slice (win0_1.rect t)).set ↔ _
  rw [View.set_slice_whole, Rect.mem_set_unit]
  exact Iff.rfl

/-- The sixteen blocks tile the degree array. -/
theorem cover0 (i : S4x4096x1.Idx) : ∃ t : Fin cfg0.N, (cfg0.win 1).flush t = true ∧ i ∈ ((cfg0.win 1).blk t).view.set := by
  have hi0 : (i 0).val < 4 := (i 0).isLt
  have hi1 : (i 1).val < 4096 := (i 1).isLt
  have hi2 : (i 2).val < 1 := (i 2).isLt
  obtain ⟨t, ht⟩ := idx_onto0 ⟨(i 0).val, hi0⟩ ⟨(i 1).val / 1024, by omega⟩
  have q0 : win0_1.index t (0 : Fin 3) = (i 0).val := congrFun ht 0
  have q1 : win0_1.index t (1 : Fin 3) = (i 1).val / 1024 := congrFun ht 1
  have q2 : win0_1.index t (2 : Fin 3) = 0 := congrFun ht 2
  refine ⟨t, flush0_1 t, ?_⟩
  rw [mem_blk0]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 1 ≤ (i 2).val ∧ (i 2).val < win0_1.index t (2 : Fin 3) * 1 + 1; omega

/-- The degree array after the region. -/
theorem final0 (c : Dev nD) : (dat0 V c).arrAt 1 cfg0.N = degArr (V c main_arg1) :=
  (dat0 V c).arrAt_eq_of_cover 1 _ (fun t _ => flushed0_eq V c t) cover0

end

end Cert.KernelIdeal.Hand

end
-- ==== Proof.AggEntry.lean ====
/-
  What the aggregation region is entered from. The adjacency, the weights and the bias are as launched (no host operation
  writes them and the degree region only reads the adjacency); the degree array is the row sums (the degree region's result);
  the scaled features are, at (b, m, f), the reciprocal square root of the shifted degree of node m times the feature —
  the six host operations between the regions, read at an index.
-/
import proofs.«128174_j15762529976410_2_alg».proof.Proof.RunI
import proofs.«128174_j15762529976410_2_alg».proof.Proof.DegreeValue
import Idealize.ShloMosaic.Lib.StableHlo.Run
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The adjacency at the aggregation region's entry is the launch's. -/
theorem entry_adj (c : Dev nD) : W2 m c (Proc.devRef .tc main_arg1) = m ((c : Thread nD τ).loc main_arg1) :=
  calc W2 m c (Proc.devRef .tc main_arg1)
    _ = W1 m c (Proc.devRef .tc main_arg1) := StableHlo.after_of_writes_sub hostOps1 _ hostOps1_writes (by decide : main_arg1 ∉ hostOps1_W)
    _ = W0 m c (Proc.devRef .tc main_arg1) := (W1_arr m c 0).trans (((dat0 (VV0 m) c).arrAt_in 0 rfl _).trans (A_eq0 (VV0 m) c 0))
    _ = m ((c : Thread nD τ).loc main_arg1) := rfl

/-- The weights at the aggregation region's entry are the launch's. -/
theorem entry_weight (c : Dev nD) : W2 m c (Proc.devRef .tc main_arg2) = m ((c : Thread nD τ).loc main_arg2) :=
  calc W2 m c (Proc.devRef .tc main_arg2)
    _ = W1 m c (Proc.devRef .tc main_arg2) := StableHlo.after_of_writes_sub hostOps1 _ hostOps1_writes (by decide : main_arg2 ∉ hostOps1_W)
    _ = W0 m c (Proc.devRef .tc main_arg2) := W1_of_ne m c main_arg2 (by decide)
    _ = m ((c : Thread nD τ).loc main_arg2) := rfl

/-- The bias at the aggregation region's entry is the launch's. -/
theorem entry_bias (c : Dev nD) : W2 m c (Proc.devRef .tc main_arg3) = m ((c : Thread nD τ).loc main_arg3) :=
  calc W2 m c (Proc.devRef .tc main_arg3)
    _ = W1 m c (Proc.devRef .tc main_arg3) := StableHlo.after_of_writes_sub hostOps1 _ hostOps1_writes (by decide : main_arg3 ∉ hostOps1_W)
    _ = W0 m c (Proc.devRef .tc main_arg3) := W1_of_ne m c main_arg3 (by decide)
    _ = m ((c : Thread nD τ).loc main_arg3) := rfl

/-- The degree array after the degree region is the row sums of the launch's adjacency. -/
theorem exit_deg (c : Dev nD) : W1 m c (Proc.devRef .tc main_v0) = degArr (m ((c : Thread nD τ).loc main_arg1)) :=
  (W1_arr m c 1).trans (final0 (VV0 m) c)

/-- and so it is at the aggregation region's entry. -/
theorem entry_deg (c : Dev nD) : W2 m c (Proc.devRef .tc main_v0) = degArr (m ((c : Thread nD τ).loc main_arg1)) :=
  (StableHlo.after_of_writes_sub hostOps1 _ hostOps1_writes (by decide : main_v0 ∉ hostOps1_W)).trans (exit_deg m c)

/-- The features after the degree region are the launch's. -/
theorem exit_x (c : Dev nD) : W1 m c (Proc.devRef .tc main_arg0) = m ((c : Thread nD τ).loc main_arg0) :=
  (W1_of_ne m c main_arg0 (by decide)).trans rfl

/-- A column [4, 4096, 1] broadcast along the features, read at (b, n, f), is the column at (b, n, 0). -/
theorem column_bcast (y : S4x4096x1.Idx → EReal) (b : Fin 4) (n : Fin 4096) (f : Fin 128) :
    broadcastInDim S4x4096x128 ![0, 1, 2] bcast_S4x4096x1_S4x4096x128_0_1_2 y (ix3 b n f) = y (ix3 b n (0 : Fin 1)) :=
  broadcastInDim_apply _ bcast_S4x4096x1_S4x4096x128_0_1_2 y (ix3 b n f) (ix3 b n (0 : Fin 1)) (fun a => match a with
    | ⟨0, _⟩ => by show b.val = if (4 : Nat) = 1 then 0 else b.val; rw [if_neg (by decide)]
    | ⟨1, _⟩ => by show n.val = if (4096 : Nat) = 1 then 0 else n.val; rw [if_neg (by decide)]
    | ⟨2, _⟩ => by show 0 = if (1 : Nat) = 1 then 0 else f.val; rw [if_pos rfl])

/-- The scaled features at the aggregation region's entry, at (b, n, f): the reciprocal square root of node n's shifted
    degree times the feature. -/
theorem entry_xs (c : Dev nD) (b : Fin 4) (n : Fin 4096) (f : Fin 128) :
    (W2 m c (Proc.devRef .tc main_v5) : S4x4096x128.Idx → EReal) (ix3 b n f)
      = Cert.Gcn.dK (m ((c : Thread nD τ).loc main_arg1)) b n * (m ((c : Thread nD τ).loc main_arg0) : S4x4096x128.Idx → EReal) (ix3 b n f) := by
  have e : (W2 m c (Proc.devRef .tc main_v5) : S4x4096x128.Idx → EReal)
      = mulf (F := Ideal) (broadcastInDim S4x4096x128 ![0, 1, 2] bcast_S4x4096x1_S4x4096x128_0_1_2
          (Host.rsqrt (F := Ideal) (addf (F := Ideal) (W1 m c (Proc.devRef .tc main_v0) : S4x4096x1.Idx → EReal)
            (broadcastInDim S4x4096x1 ![] bcast_S_S4x4096x1 (constant (F := Ideal) S_ .f32 0x358637BD#32)))))
          (W1 m c (Proc.devRef .tc main_arg0) : S4x4096x128.Idx → EReal) := by
    dsimp only [W2, hostOps1]; after_results
  rw [e, exit_deg m c, exit_x m c]
  show (broadcastInDim S4x4096x128 ![0, 1, 2] bcast_S4x4096x1_S4x4096x128_0_1_2
      (Host.rsqrt (F := Ideal) (addf (F := Ideal) (degArr (m ((c : Thread nD τ).loc main_arg1)))
        (broadcastInDim S4x4096x1 ![] bcast_S_S4x4096x1 (constant (F := Ideal) S_ .f32 0x358637BD#32)))) (ix3 b n f))
      * (m ((c : Thread nD τ).loc main_arg0) : S4x4096x128.Idx → EReal) (ix3 b n f) = _
  rw [column_bcast]
  rfl

end Cert.KernelIdeal.Hand

end
-- ==== Proof.AggPiecesI.lean ====
/-
  What the aggregation body leaves, as terms over the loaded blocks: at an even point the accumulator holds the block
  product added to zeros; at an odd point the accumulator holds the block product added to what it held, and the output's
  buffer holds the scaled, projected, shifted accumulator. (A store of a whole buffer, last, leaves its payload; a load of
  a whole buffer after one whole store reads that store's payload.)
-/
import proofs.«128174_j15762529976410_2_alg».proof.Proof.AggRegionI
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- An even point leaves the accumulator at zeros plus its block product. -/
theorem sout1_A_eq (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : cond1_0 i) (hc1 : ¬cond1_1 i)
    (x0 : Vec F S1x1024x2048 .f32) (x1 : Vec F S1x2048x128 .f32) (x2 : Vec F S1x1024x1 .f32) (x3 : Vec F S128x128 .f32) (x4 : Vec F S128 .f32) :
    sout1_A c i arg3 harg3 arg4 harg4 arg5 harg5 arg6 harg6 arg7 harg7 arg8 harg8 arg9 harg9 hc0 hc1 x0 x1 x2 x3 x4 = k1_pay2 x0 x1 (k1_pay1 (F := F)) := by
  unfold sout1_A
  rw [View.read_writes_eq_canon _ _ _ (scover1_A c i arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S1024x128) hz2]
  rw [View.readCov_unit_zero (S := S1024x128) _ hz2]
  simp only [View.readAt_eq_ld, harg3.read_unread, harg4.read_unread,
    View.ld_unit_zero (S := S1x1024x2048) hz3, View.ld_unit_zero (S := S1x2048x128) hz3]

/-- An odd point leaves the accumulator at what it held plus its block product. -/
theorem sout1_B_eq (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : ¬cond1_0 i) (hc1 : cond1_1 i)
    (x0 : Vec F S1x1024x2048 .f32) (x1 : Vec F S1x2048x128 .f32) (x2 : Vec F S1x1024x1 .f32) (x3 : Vec F S128x128 .f32) (x4 : Vec F S128 .f32) (xs0 : Vec F S1024x128 .f32) :
    sout1_B c i arg3 harg3 arg4 harg4 arg5 harg5 arg6 harg6 arg7 harg7 arg8 harg8 arg9 harg9 hc0 hc1 x0 x1 x2 x3 x4 xs0 = k1_pay2 x0 x1 xs0 := by
  unfold sout1_B
  rw [View.read_writes_eq_canon _ _ _ (scover1_B c i arg3 harg3 arg4 harg4 arg5 harg5 arg6 harg6 arg7 harg7 arg8 harg8 arg9 harg9 hc0 hc1 x0 x1 x2 x3 x4 xs0)]
  unfold kernelRun1_B
  dsimp only
  sl_unfold_words
  rw [View.canon_unit_zero (S := S1024x128) hz2]
  simp only [View.readAt_eq_ld, harg3.read_unread, harg4.read_unread, harg9.read_unread,
    View.ld_unit_zero (S := S1x1024x2048) hz3, View.ld_unit_zero (S := S1x2048x128) hz3, View.ld_unit_zero (S := S1024x128) hz2]

/-- An odd point leaves the output's buffer at the scaled, projected, shifted accumulator. -/
theorem out1_B_eq (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x1 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1x1024x128 .f32) (harg8 : arg8.IsWhole) (arg9 : Memref sig .tc .vmem S1024x128 .f32) (harg9 : arg9.IsWhole) (hc0 : ¬cond1_0 i) (hc1 : cond1_1 i)
    (x0 : Vec F S1x1024x2048 .f32) (x1 : Vec F S1x2048x128 .f32) (x2 : Vec F S1x1024x1 .f32) (x3 : Vec F S128x128 .f32) (x4 : Vec F S128 .f32) (xs0 : Vec F S1024x128 .f32) :
    out1_B_5 c i arg3 harg3 arg4 harg4 arg5 harg5 arg6 harg6 arg7 harg7 arg8 harg8 arg9 harg9 hc0 hc1 x0 x1 x2 x3 x4 xs0 = k1_pay3 x2 (k1_pay2 x0 x1 xs0) x3 x4 := by
  unfold out1_B_5
  rw [View.read_writes_eq_canon _ _ _ (cover1_B_5 c i arg3 harg3 arg4 harg4 arg5 harg5 arg6 harg6 arg7 harg7 arg8 harg8 arg9 harg9 hc0 hc1 x0 x1 x2 x3 x4 xs0)]
  unfold kernelRun1_B
  dsimp only
  sl_unfold_words
  rw [View.canon_unit_zero (S := S1x1024x128) hz3]
  rw [View.readCov_unit_zero (S := S1024x128) _ hz2]
  simp only [View.readAt_eq_ld, harg3.read_unread, harg4.read_unread, harg5.read_unread, harg6.read_unread, harg7.read_unread, harg9.read_unread,
    View.ld_unit_zero (S := S1x1024x2048) hz3, View.ld_unit_zero (S := S1x2048x128) hz3, View.ld_unit_zero (S := S1x1024x1) hz3,
    View.ld_unit_zero (S := S128x128) hz2, View.ld_unit_zero (S := S128) hz1, View.ld_unit_zero (S := S1024x128) hz2]

end Cert.KernelIdeal.Hand

end
-- ==== Proof.AggValue.lean ====
/-
  The aggregation region's result, read: after the region the result array is the layer's value `kernelVal` of the launch's
  arrays. Only the odd points write back. At the odd point (b, i, 1) the output's buffer holds, at (r, o), the accumulator
  scaled by the row's factor, contracted with the weights, shifted by the bias; the accumulator is zero plus the block
  product of the even point (b, i, 0) before it plus its own block product: the two halves of the contraction over the
  4096 neighbours. The blocks read where the output's rectangle says: the adjacency rows 1024·i + r of graph b, its columns
  split in two halves; the scaled features of graph b, their rows split the same way; the degree of node 1024·i + r.
  The sixteen blocks written back tile the result array.
-/
import proofs.«128174_j15762529976410_2_alg».proof.Proof.AggEntry
import proofs.«128174_j15762529976410_2_alg».proof.Proof.AggPiecesI
import proofs.«128174_j15762529976410_2_alg».proof.Proof.Payloads
import proofs.«128174_j15762529976410_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The point before `t`. -/
def prev (t : Fin cfg1.N) : Fin cfg1.N := ⟨t.val - 1, Nat.lt_of_le_of_lt (Nat.sub_le _ _) t.isLt⟩

section Generic

variable {F : FTy → Type} [FloatOps F]
variable (V : (c : Dev nD) → (b : Ref sig .tc) → Buf (Elt F) ((c : Thread nD τ).loc b))

/-- What an odd point leaves in the output's buffer, over the blocks of the point and of the even point before it. -/
theorem after5_odd (c : Dev nD) (t : Fin cfg1.N) (h0 : ¬t.val % 2 = 0) :
    (dat1 V c).after 5 t = k1_pay3 (iblk1 V c 2 t) (k1_pay2 (iblk1 V c 0 t) (iblk1 V c 1 t)
        (k1_pay2 (iblk1 V c 0 (prev t)) (iblk1 V c 1 (prev t)) (k1_pay1 (F := F)))) (iblk1 V c 3 t) (iblk1 V c 4 t) := by
  have hp : (prev t).val % 2 = 0 := by show (t.val - 1) % 2 = 0; omega
  rw [after1_5, outsAt1_B V c t h0]
  unfold pairB
  dsimp only
  rw [out1_B_eq]
  rw [show outsAt1 V c (t.val - 1) (Nat.lt_of_le_of_lt (Nat.sub_le _ _) t.isLt) = outsAt1 V c (prev t).val (prev t).isLt from rfl,
    outsAt1_A V c (prev t) hp]
  unfold pairA
  dsimp only
  rw [sout1_A_eq]

end Generic

/-- A sum over 4096 indices is the sum over its first 2048 plus the sum over its last 2048. -/
theorem sum_halves {M : Type*} [AddCommMonoid M] (g : Fin 4096 → M) :
    ∑ k : Fin 4096, g k = (∑ k : Fin 2048, g (Fin.castAdd 2048 k)) + ∑ k : Fin 2048, g (Fin.natAdd 2048 k) :=
  Fin.sum_univ_add (a := 2048) (b := 2048) (f := g)

/-- The printed index maps at an odd point, decided over the grid. -/
theorem idx_facts1 : ∀ t : Fin cfg1.N, t.val % 2 = 1 →
    win1_0.index t (0 : Fin 3) = win1_5.index t (0 : Fin 3) ∧ win1_0.index t (1 : Fin 3) = win1_5.index t (1 : Fin 3) ∧ win1_0.index t (2 : Fin 3) = 1
    ∧ win1_1.index t (0 : Fin 3) = win1_5.index t (0 : Fin 3) ∧ win1_1.index t (1 : Fin 3) = 1 ∧ win1_1.index t (2 : Fin 3) = 0
    ∧ win1_2.index t (0 : Fin 3) = win1_5.index t (0 : Fin 3) ∧ win1_2.index t (1 : Fin 3) = win1_5.index t (1 : Fin 3) ∧ win1_2.index t (2 : Fin 3) = 0
    ∧ win1_3.index t (0 : Fin 2) = 0 ∧ win1_3.index t (1 : Fin 2) = 0 ∧ win1_4.index t (0 : Fin 1) = 0
    ∧ win1_5.index t (2 : Fin 3) = 0 ∧ win1_5.index t (0 : Fin 3) ≤ 3 ∧ win1_5.index t (1 : Fin 3) ≤ 3 :=
  (by decide +kernel : ∀ t : Fin grid1.N, _)

/-- and at the even point before it. -/
theorem idx_prev1 : ∀ t : Fin cfg1.N, t.val % 2 = 1 → ∀ t' : Fin cfg1.N, t'.val + 1 = t.val →
    win1_0.index t' (0 : Fin 3) = win1_5.index t (0 : Fin 3) ∧ win1_0.index t' (1 : Fin 3) = win1_5.index t (1 : Fin 3) ∧ win1_0.index t' (2 : Fin 3) = 0
    ∧ win1_1.index t' (0 : Fin 3) = win1_5.index t (0 : Fin 3) ∧ win1_1.index t' (1 : Fin 3) = 0 ∧ win1_1.index t' (2 : Fin 3) = 0 :=
  (by decide +kernel : ∀ t : Fin grid1.N, _)

/-- Every block of the result array is some odd point's. -/
theorem idx_onto1 : ∀ (q0 : Fin 4) (q1 : Fin 4), ∃ t : Fin cfg1.N, t.val % 2 = 1 ∧ win1_5.index t = ![q0.val, q1.val, 0] :=
  (by decide +kernel : ∀ (q0 : Fin 4) (q1 : Fin 4), ∃ t : Fin grid1.N, t.val % 2 = 1 ∧ win1_5.index t = ![q0.val, q1.val, 0])

variable (m : (ℓ : Loc nD τ sig) → Buf (Elt Ideal) ℓ)

/-- What an odd point writes back is block `t` of the layer's value of the launch's arrays. -/
theorem flushed1_eq (c : Dev nD) (t : Fin cfg1.N) (hf : (cfg1.win 5).flush t = true) :
    (dat1 (VV2 m) c).flushed 5 t = ((cfg1.win 5).blk t).view.read (Elt Ideal)
      (Cert.Gcn.kernelVal (m ((c : Thread nD τ).loc main_arg0)) (m ((c : Thread nD τ).loc main_arg1)) (m ((c : Thread nD τ).loc main_arg2)) (m ((c : Thread nD τ).loc main_arg3))) := by
  have h1 : t.val % 2 = 1 := (flush1_5 t).mp hf
  show (cfg1.win 5).cut (grid1.coords t) ((dat1 (VV2 m) c).after 5 t) = _
  rw [after5_odd (VV2 m) c t (by omega)]
  obtain ⟨e00, e01, e02, e10, e11, e12, e20, e21, e22, e30, e31, e40, e52, e5a, e5b⟩ := idx_facts1 t h1
  obtain ⟨p00, p01, p02, p10, p11, p12⟩ := idx_prev1 t h1 (prev t) (by show t.val - 1 + 1 = t.val; omega)
  funext j
  obtain ⟨r, o, rfl⟩ : ∃ (r : Fin 1024) (o : Fin 128), j = ix3 (0 : Fin 1) r o :=
    ⟨j 1, j 2, funext fun a => match a with
      | ⟨0, _⟩ => Fin.ext (by have h : (j 0).val < 1 := (j 0).isLt; show (j 0).val = 0; omega)
      | ⟨1, _⟩ => rfl
      | ⟨2, _⟩ => rfl⟩
  have hr : r.val < 1024 := r.isLt
  have ho : o.val < 128 := o.isLt
  -- the array index the block's element (r, o) sits at
  let b : Fin 4 := ⟨win1_5.index t (0 : Fin 3), by omega⟩
  let n : Fin 4096 := ⟨win1_5.index t (1 : Fin 3) * 1024 + r.val, by omega⟩
  have hI : ((cfg1.win 5).blk t).view.emb (ix3 (0 : Fin 1) r o) = ix3 b n o := by
    funext a; apply Fin.ext
    match a with
    | ⟨0, _⟩ => show win1_5.index t (0 : Fin 3) * 1 + 1 * 0 = win1_5.index t (0 : Fin 3); omega
    | ⟨1, _⟩ => show win1_5.index t (1 : Fin 3) * 1024 + 1 * r.val = win1_5.index t (1 : Fin 3) * 1024 + r.val; omega
    | ⟨2, _⟩ => show win1_5.index t (2 : Fin 3) * 128 + 1 * o.val = o.val; omega
  let X : S4x4096x128.Idx → EReal := m ((c : Thread nD τ).loc main_arg0)
  let A : S4x4096x4096.Idx → EReal := m ((c : Thread nD τ).loc main_arg1)
  let Wt : S128x128.Idx → EReal := m ((c : Thread nD τ).loc main_arg2)
  let Bi : S128.Idx → EReal := m ((c : Thread nD τ).loc main_arg3)
  refine (Cert.Gcn.Pay.output_block _ _ _ _ r o).trans ?_
  show _ = Cert.Gcn.kernelVal X A Wt Bi (((cfg1.win 5).blk t).view.emb (ix3 (0 : Fin 1) r o))
  rw [hI]
  show _ = (∑ f : Fin 128, Cert.Gcn.aggK X A b n f * Wt (ix2 f o)) + Bi (ix1 o)
  -- the bias
  have hbias : iblk1 (VV2 m) c 4 t (ix1 o) = Bi (ix1 o) := by
    show (W2 m c (Proc.devRef .tc main_arg3) : S128.Idx → EReal) (((cfg1.win 4).blk t).view.emb (ix1 o)) = _
    rw [entry_bias m c]
    refine congrArg Bi ?_
    funext a; apply Fin.ext
    match a with
    | ⟨0, _⟩ => show win1_4.index t (0 : Fin 1) * 128 + 1 * o.val = o.val; omega
  -- the weights
  have hweight : ∀ f : Fin 128, iblk1 (VV2 m) c 3 t (ix2 f o) = Wt (ix2 f o) := fun f => by
    have hf' : f.val < 128 := f.isLt
    show (W2 m c (Proc.devRef .tc main_arg2) : S128x128.Idx → EReal) (((cfg1.win 3).blk t).view.emb (ix2 f o)) = _
    rw [entry_weight m c]
    refine congrArg Wt ?_
    funext a; apply Fin.ext
    match a with
    | ⟨0, _⟩ => show win1_3.index t (0 : Fin 2) * 128 + 1 * f.val = f.val; omega
    | ⟨1, _⟩ => show win1_3.index t (1 : Fin 2) * 128 + 1 * o.val = o.val; omega
  -- the row's degree
  have hdeg : iblk1 (VV2 m) c 2 t (ix3 (0 : Fin 1) r (0 : Fin 1)) = Cert.Gcn.deg A b n := by
    show (W2 m c (Proc.devRef .tc main_v0) : S4x4096x1.Idx → EReal) (((cfg1.win 2).blk t).view.emb (ix3 (0 : Fin 1) r (0 : Fin 1))) = _
    rw [entry_deg m c]
    have hi : ((cfg1.win 2).blk t).view.emb (ix3 (0 : Fin 1) r (0 : Fin 1)) = ix3 b n (0 : Fin 1) := by
      funext a; apply Fin.ext
      match a with
      | ⟨0, _⟩ => show win1_2.index t (0 : Fin 3) * 1 + 1 * 0 = win1_5.index t (0 : Fin 3); omega
      | ⟨1, _⟩ => show win1_2.index t (1 : Fin 3) * 1024 + 1 * r.val = win1_5.index t (1 : Fin 3) * 1024 + r.val; omega
      | ⟨2, _⟩ => show win1_2.index t (2 : Fin 3) * 1 + 1 * 0 = 0; omega
    rw [hi]
    rfl
  -- the adjacency row, its first and its second half of columns
  have hadj0 : ∀ k : Fin 2048, iblk1 (VV2 m) c 0 (prev t) (ix3 (0 : Fin 1) r k) = A (ix3 b n (Fin.castAdd 2048 k)) := fun k => by
    have hk : k.val < 2048 := k.isLt
    show (W2 m c (Proc.devRef .tc main_arg1) : S4x4096x4096.Idx → EReal) (((cfg1.win 0).blk (prev t)).view.emb (ix3 (0 : Fin 1) r k)) = _
    rw [entry_adj m c]
    refine congrArg A ?_
    funext a; apply Fin.ext
    match a with
    | ⟨0, _⟩ => show win1_0.index (prev t) (0 : Fin 3) * 1 + 1 * 0 = win1_5.index t (0 : Fin 3); omega
    | ⟨1, _⟩ => show win1_0.index (prev t) (1 : Fin 3) * 1024 + 1 * r.val = win1_5.index t (1 : Fin 3) * 1024 + r.val; omega
    | ⟨2, _⟩ => show win1_0.index (prev t) (2 : Fin 3) * 2048 + 1 * k.val = k.val; omega
  have hadj1 : ∀ k : Fin 2048, iblk1 (VV2 m) c 0 t (ix3 (0 : Fin 1) r k) = A (ix3 b n (Fin.natAdd 2048 k)) := fun k => by
    have hk : k.val < 2048 := k.isLt
    show (W2 m c (Proc.devRef .tc main_arg1) : S4x4096x4096.Idx → EReal) (((cfg1.win 0).blk t).view.emb (ix3 (0 : Fin 1) r k)) = _
    rw [entry_adj m c]
    refine congrArg A ?_
    funext a; apply Fin.ext
    match a with
    | ⟨0, _⟩ => show win1_0.index t (0 : Fin 3) * 1 + 1 * 0 = win1_5.index t (0 : Fin 3); omega
    | ⟨1, _⟩ => show win1_0.index t (1 : Fin 3) * 1024 + 1 * r.val = win1_5.index t (1 : Fin 3) * 1024 + r.val; omega
    | ⟨2, _⟩ => show win1_0.index t (2 : Fin 3) * 2048 + 1 * k.val = 2048 + k.val; omega
  -- the scaled features, their first and their second half of rows
  have hxs0 : ∀ (k : Fin 2048) (f : Fin 128), iblk1 (VV2 m) c 1 (prev t) (ix3 (0 : Fin 1) k f)
      = Cert.Gcn.dK A b (Fin.castAdd 2048 k) * X (ix3 b (Fin.castAdd 2048 k) f) := fun k f => by
    have hk : k.val < 2048 := k.isLt
    have hf' : f.val < 128 := f.isLt
    show (W2 m c (Proc.devRef .tc main_v5) : S4x4096x128.Idx → EReal) (((cfg1.win 1).blk (prev t)).view.emb (ix3 (0 : Fin 1) k f)) = _
    have hi : ((cfg1.win 1).blk (prev t)).view.emb (ix3 (0 : Fin 1) k f) = ix3 b (Fin.castAdd 2048 k) f := by
      funext a; apply Fin.ext
      match a with
      | ⟨0, _⟩ => show win1_1.index (prev t) (0 : Fin 3) * 1 + 1 * 0 = win1_5.index t (0 : Fin 3); omega
      | ⟨1, _⟩ => show win1_1.index (prev t) (1 : Fin 3) * 2048 + 1 * k.val = k.val; omega
      | ⟨2, _⟩ => show win1_1.index (prev t) (2 : Fin 3) * 128 + 1 * f.val = f.val; omega
    rw [hi]
    exact entry_xs m c b (Fin.castAdd 2048 k) f
  have hxs1 : ∀ (k : Fin 2048) (f : Fin 128), iblk1 (VV2 m) c 1 t (ix3 (0 : Fin 1) k f)
      = Cert.Gcn.dK A b (Fin.natAdd 2048 k) * X (ix3 b (Fin.natAdd 2048 k) f) := fun k f => by
    have hk : k.val < 2048 := k.isLt
    have hf' : f.val < 128 := f.isLt
    show (W2 m c (Proc.devRef .tc main_v5) : S4x4096x128.Idx → EReal) (((cfg1.win 1).blk t).view.emb (ix3 (0 : Fin 1) k f)) = _
    have hi : ((cfg1.win 1).blk t).view.emb (ix3 (0 : Fin 1) k f) = ix3 b (Fin.natAdd 2048 k) f := by
      funext a; apply Fin.ext
      match a with
      | ⟨0, _⟩ => show win1_1.index t (0 : Fin 3) * 1 + 1 * 0 = win1_5.index t (0 : Fin 3); omega
      | ⟨1, _⟩ => show win1_1.index t (1 : Fin 3) * 2048 + 1 * k.val = 2048 + k.val; omega
      | ⟨2, _⟩ => show win1_1.index t (2 : Fin 3) * 128 + 1 * f.val = f.val; omega
    rw [hi]
    exact entry_xs m c b (Fin.natAdd 2048 k) f
  -- the accumulator at (r, f): the whole contraction over the 4096 neighbours
  have hacc : ∀ f : Fin 128, k1_pay2 (F := Ideal) (iblk1 (VV2 m) c 0 t) (iblk1 (VV2 m) c 1 t)
        (k1_pay2 (F := Ideal) (iblk1 (VV2 m) c 0 (prev t)) (iblk1 (VV2 m) c 1 (prev t)) (k1_pay1 (F := Ideal))) (ix2 r f)
      = ∑ k : Fin 4096, A (ix3 b n k) * (Cert.Gcn.dK A b k * X (ix3 b k f)) := fun f => by
    refine (Cert.Gcn.Pay.accumulate_block _ _ _ r f).trans ?_
    rw [Cert.Gcn.Pay.accumulate_block, Cert.Gcn.Pay.zero_block, zero_add, sum_halves]
    refine congrArg₂ (· + ·) (Finset.sum_congr rfl fun k _ => ?_) (Finset.sum_congr rfl fun k _ => ?_)
    · rw [hadj0 k, hxs0 k f]
    · rw [hadj1 k, hxs1 k f]
  rw [hbias, hdeg]
  refine congrArg₂ (· + ·) (Finset.sum_congr rfl fun f _ => ?_) rfl
  rw [hweight f, hacc f]
  rfl

/-- An index of the result array is in point `t`'s block iff each coordinate is in the block's range on its axis. -/
theorem mem_blk1 (t : Fin cfg1.N) (i : S4x4096x128.Idx) :
    i ∈ ((cfg1.win 5).blk t).view.set ↔ ∀ a : Fin 3, win1_5.index t a * S1x1024x128.size a ≤ (i a).val ∧ (i a).val < win1_5.index t a * S1x1024x128.size a + S1x1024x128.size a := by
  show i ∈ ((View.whole main_v6).slice (win1_5.rect t)).set ↔ _
  rw [View.set_slice_whole, Rect.mem_set_unit]
  exact Iff.rfl

/-- The sixteen blocks written back tile the result array. -/
theorem cover1 (i : S4x4096x128.Idx) : ∃ t : Fin cfg1.N, (cfg1.win 5).flush t = true ∧ i ∈ ((cfg1.win 5).blk t).view.set := by
  have hi0 : (i 0).val < 4 := (i 0).isLt
  have hi1 : (i 1).val < 4096 := (i 1).isLt
  have hi2 : (i 2).val < 128 := (i 2).isLt
  obtain ⟨t, hodd, ht⟩ := idx_onto1 ⟨(i 0).val, hi0⟩ ⟨(i 1).val / 1024, by omega⟩
  have q0 : win1_5.index t (0 : Fin 3) = (i 0).val := congrFun ht 0
  have q1 : win1_5.index t (1 : Fin 3) = (i 1).val / 1024 := congrFun ht 1
  have q2 : win1_5.index t (2 : Fin 3) = 0 := congrFun ht 2
  refine ⟨t, (flush1_5 t).mpr hodd, ?_⟩
  rw [mem_blk1]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1024 ≤ (i 1).val ∧ (i 1).val < win1_5.index t (1 : Fin 3) * 1024 + 1024; omega
  | ⟨2, _⟩ => show win1_5.index t (2 : Fin 3) * 128 ≤ (i 2).val ∧ (i 2).val < win1_5.index t (2 : Fin 3) * 128 + 128; omega

/-- The result array after the aggregation region is the layer's value of the launch's arrays. -/
theorem final1 (c : Dev nD) : (dat1 (VV2 m) c).arrAt 5 cfg1.N
    = Cert.Gcn.kernelVal (m ((c : Thread nD τ).loc main_arg0)) (m ((c : Thread nD τ).loc main_arg1)) (m ((c : Thread nD τ).loc main_arg2)) (m ((c : Thread nD τ).loc main_arg3)) :=
  (dat1 (VV2 m) c).arrAt_eq_of_cover 5 _ (fun t hf => flushed1_eq m c t hf) cover1

/-- The kernel's run at the ideal instance: the result array ends at the layer's value of the launch's arrays, the
    argument arrays as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v6) = Cert.Gcn.kernelVal (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v6 (by decide))).trans ((W3_main_v6 m c).trans (final1 m c)),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Hand

end
-- ==== Proof.RefValue.lean ====
/-
  The reference's result, read index by index, is the specification's `refVal`.

  The reference computes, for each graph b and node n, the row sum of the adjacency from 0, adds the shift ε, raises the
  result to the power -1/2, and uses that factor twice: broadcast along the columns (the factor of row n) and along the
  rows (the factor of column m) of the adjacency. The normalised adjacency is contracted with the features over the
  neighbour m, the result with the weights over the feature f, and the bias is added along the last axis. Each lemma below
  reads one more of these operations at an index given by its coordinates: a broadcast reads its operand at the kept
  coordinates, a contraction is the sum over the contracted coordinate. The only arithmetic fact used is that the zero
  word denotes 0, so the row sum starts from nothing.
-/
import proofs.«128174_j15762529976410_2_alg».proof.Proof.Gen.ReferenceIdeal.Read
import proofs.«128174_j15762529976410_2_alg».proof.Proof.Spec

noncomputable section

namespace Cert.Gcn

open Cert.ReferenceIdeal Cert.ReferenceIdeal.Gen Cert.ReferenceIdeal.Read Idealize.ShloMosaic Idealize.ShloMosaic.ValueIdx

/-- The node factor of the reference at (b, n): the shifted row sum of the adjacency to the power -1/2. The sum over the
    last axis starts from the zero word, which denotes 0; the two scalar constants are read through their broadcasts. -/
theorem ref_factor (adj : FVec Ideal S4x4096x4096 .f32) (b : Fin 4) (n : Fin 4096) :
    val_main_v4 (F := Ideal) adj (ix2 b n) = dR adj b n := by
  rw [val_main_v4_apply, val_main_v2_apply, val_main_v0_apply, val_main_v1_apply, val_main_v3_apply,
    val_main_cst_apply, val_main_cst_0_apply, val_main_cst_1_apply]
  simp only [Ideal.hostPowf_def, Ideal.addf_def, Ideal.ofBits_def, Ideal.ofBits_zero_f32, zero_add]
  have e : ∀ k : Fin 4096, idx_main_v0 (ix2 b n) k = ix3 b n k := fun k =>
    funext fun a => Fin.ext (by match a with | ⟨0, _⟩ => rfl | ⟨1, _⟩ => rfl | ⟨2, _⟩ => rfl)
  simp only [e]
  rfl

/-- The normalised adjacency at (b, n, m): the factor of row n (broadcast along the last axis) times the entry, times
    the factor of column m (broadcast along the middle axis). -/
theorem ref_adj (adj : FVec Ideal S4x4096x4096 .f32) (b : Fin 4) (n m : Fin 4096) :
    val_main_v10 (F := Ideal) adj (ix3 b n m) = (dR adj b n * adj (ix3 b n m)) * dR adj b m := by
  rw [val_main_v10_apply, val_main_v7_apply, val_main_v6_apply, val_main_v5_apply, val_main_v9_apply, val_main_v8_apply]
  have e1 : idx_main_v5 (idx_main_v6 (ix3 b n m)) = ix2 b n :=
    funext fun a => Fin.ext (by match a with | ⟨0, _⟩ => rfl | ⟨1, _⟩ => rfl)
  have e2 : idx_main_v8 (idx_main_v9 (ix3 b n m)) = ix2 b m :=
    funext fun a => Fin.ext (by match a with | ⟨0, _⟩ => rfl | ⟨1, _⟩ => rfl)
  rw [e1, e2, ref_factor, ref_factor]
  rfl

/-- The first contraction at (b, n, f): the normalised adjacency row against column f of graph b's features, summed over
    the neighbour m. -/
theorem ref_agg (x : FVec Ideal S4x4096x128 .f32) (adj : FVec Ideal S4x4096x4096 .f32) (b : Fin 4) (n : Fin 4096) (f : Fin 128) :
    val_main_v11 (F := Ideal) x adj (ix3 b n f) = aggR x adj b n f := by
  rw [val_main_v11_apply]
  unfold aggR
  refine Finset.sum_congr rfl fun m _ => ?_
  have e1 : lidx_main_v11 (ix3 b n f) m = ix3 b n m :=
    funext fun a => Fin.ext (by match a with | ⟨0, _⟩ => rfl | ⟨1, _⟩ => rfl | ⟨2, _⟩ => rfl)
  have e2 : ridx_main_v11 (ix3 b n f) m = ix3 b m f :=
    funext fun a => Fin.ext (by match a with | ⟨0, _⟩ => rfl | ⟨1, _⟩ => rfl | ⟨2, _⟩ => rfl)
  rw [e1, e2, ref_adj]

/-- The result at (b, n, o): the aggregated features against column o of the weights, summed over the feature f, plus
    the bias entry o (the bias is broadcast along the first two axes). -/
theorem ref_at (x : FVec Ideal S4x4096x128 .f32) (adj : FVec Ideal S4x4096x4096 .f32) (w : FVec Ideal S128x128 .f32)
    (bias : FVec Ideal S128 .f32) (b : Fin 4) (n : Fin 4096) (o : Fin 128) :
    val_main_v15 (F := Ideal) x adj w bias (ix3 b n o) = refAt x adj w bias b n o := by
  rw [val_main_v15_apply, val_main_v12_apply, val_main_v14_apply, val_main_v13_apply]
  unfold refAt
  have e3 : idx_main_v13 (idx_main_v14 (ix3 b n o)) = ix1 o :=
    funext fun a => Fin.ext (by match a with | ⟨0, _⟩ => rfl)
  rw [e3, Ideal.addf_def]
  refine congrArg (· + bias (ix1 o)) (Finset.sum_congr rfl fun f _ => ?_)
  have e1 : lidx_main_v12 (ix3 b n o) f = ix3 b n f :=
    funext fun a => Fin.ext (by match a with | ⟨0, _⟩ => rfl | ⟨1, _⟩ => rfl | ⟨2, _⟩ => rfl)
  have e2 : ridx_main_v12 (ix3 b n o) f = ix2 f o :=
    funext fun a => Fin.ext (by match a with | ⟨0, _⟩ => rfl | ⟨1, _⟩ => rfl)
  rw [e1, e2, ref_agg]

/-- The term the reference's run leaves in its result, as a function of the four argument arrays, is `refVal`: every index
    is the triple of its coordinates, and at a triple this is `ref_at`. -/
theorem reference_value (x : (⟨3, ![4, 4096, 128]⟩ : Shape).Idx → EReal) (adj : (⟨3, ![4, 4096, 4096]⟩ : Shape).Idx → EReal)
    (w : (⟨2, ![128, 128]⟩ : Shape).Idx → EReal) (bias : (⟨1, ![128]⟩ : Shape).Idx → EReal) :
    addf (F := Ideal) (Host.dotGeneral (φ₁ := .f32) (φ₂ := .f32) dot_S4x4096x128_S128x128_S4x4096x128_2_0_01_1_n_n none (Host.dotGeneral (φ₁ := .f32) (φ₂ := .f32) dot_S4x4096x4096_S4x4096x128_S4x4096x128_2_1_1_2_0_0 none (mulf (mulf (broadcastInDim S4x4096x4096 ![0, 1, 2] bcast_S4x4096x1_S4x4096x4096_0_1_2 (broadcastInDim S4x4096x1 ![0, 1] bcast_S4x4096_S4x4096x1_0_1 (Host.powf (addf (Host.reduceAdd ((adj : FVec Ideal S4x4096x4096 .f32)) (constant S_ .f32 0x00000000#32) reducesTo_S4x4096x4096_S4x4096_d2 h_S_) (broadcastInDim S4x4096 ![] bcast_S_S4x4096 (constant S_ .f32 0x358637BD#32))) (broadcastInDim S4x4096 ![] bcast_S_S4x4096 (constant S_ .f32 0xBF000000#32))))) ((adj : FVec Ideal S4x4096x4096 .f32))) (broadcastInDim S4x4096x4096 ![0, 1, 2] bcast_S4x1x4096_S4x4096x4096_0_1_2 (broadcastInDim S4x1x4096 ![0, 2] bcast_S4x4096_S4x1x4096_0_2 (Host.powf (addf (Host.reduceAdd ((adj : FVec Ideal S4x4096x4096 .f32)) (constant S_ .f32 0x00000000#32) reducesTo_S4x4096x4096_S4x4096_d2 h_S_) (broadcastInDim S4x4096 ![] bcast_S_S4x4096 (constant S_ .f32 0x358637BD#32))) (broadcastInDim S4x4096 ![] bcast_S_S4x4096 (constant S_ .f32 0xBF000000#32)))))) ((x : FVec Ideal S4x4096x128 .f32))) ((w : FVec Ideal S128x128 .f32))) (broadcastInDim S4x4096x128 ![0, 1, 2] bcast_S1x1x128_S4x4096x128_0_1_2 (broadcastInDim S1x1x128 ![2] bcast_S128_S1x1x128_2 ((bias : FVec Ideal S128 .f32))))
      = refVal x adj w bias := by
  refine (val_main_v15_eq (F := Ideal) x adj w bias).trans (funext fun i => ?_)
  obtain ⟨b, n, o, rfl⟩ : ∃ (b : Fin 4) (n : Fin 4096) (o : Fin 128), i = ix3 b n o := ⟨i 0, i 1, i 2, eq_ix3 i⟩
  exact ref_at x adj w bias b n o

end Cert.Gcn

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.LibRealSums.lean ====
/-
  Sums of products of real numbers inside the extended reals.

  The extended reals are not a semiring: a product does not distribute over a sum when an infinity is present. For
  real numbers it does. This file has

    * the coercion of a finite real sum is the sum of the coercions;
    * the exchange law behind "aggregate, then multiply by a matrix = multiply by the matrix, then aggregate": for
      real x (e, k), w (k), v (e) and any selection p of the e's,
          ∑ e ∈ p, (∑ k, x (e, k) · w (k)) · v (e)  =  ∑ k, (∑ e ∈ p, x (e, k) · v (e)) · w (k),
      stated on the extended reals with the selection written as an `if`;
    * the larger of two real numbers is a real number.

  Nothing here depends on a particular program.
-/
import Mathlib.Data.EReal.Basic
import Mathlib.Algebra.BigOperators.Ring.Finset
import Mathlib.Algebra.BigOperators.Group.Finset.Sigma
import Mathlib.Tactic.Ring

noncomputable section

namespace Cert.RealSums

open scoped BigOperators

/-- The coercion of a finite sum of real numbers is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exchange law over the real numbers. -/
theorem exchange_real {ι κ : Type} [Fintype ι] [Fintype κ] (p : ι → Prop) [DecidablePred p]
    (x : ι → κ → ℝ) (w : κ → ℝ) (v : ι → ℝ) :
    ∑ e, (if p e then (∑ k, x e k * w k) * v e else 0) = ∑ k, (∑ e, if p e then x e k * v e else 0) * w k := by
  simp only [Finset.sum_mul]
  rw [Finset.sum_comm]
  refine Finset.sum_congr rfl fun e _ => ?_
  by_cases h : p e
  · simp only [if_pos h]
    refine Finset.sum_congr rfl fun k _ => by ring
  · simp only [if_neg h, zero_mul, Finset.sum_const_zero]

/-- The exchange law on the extended reals, for entries that are real numbers. -/
theorem exchange {ι κ : Type} [Fintype ι] [Fintype κ] (p : ι → Prop) [DecidablePred p]
    (x : ι → κ → ℝ) (w : κ → ℝ) (v : ι → ℝ) :
    ∑ e, (if p e then (∑ k, (x e k : EReal) * (w k : EReal)) * (v e : EReal) else 0)
      = ∑ k, (∑ e, if p e then (x e k : EReal) * (v e : EReal) else 0) * (w k : EReal) := by
  have hL : ∀ e, (if p e then (∑ k, (x e k : EReal) * (w k : EReal)) * (v e : EReal) else 0)
      = ((if p e then (∑ k, x e k * w k) * v e else 0 : ℝ) : EReal) := by
    intro e
    by_cases h : p e
    · rw [if_pos h, if_pos h, EReal.coe_mul, coe_sum]
      simp only [EReal.coe_mul]
    · rw [if_neg h, if_neg h, EReal.coe_zero]
  have hR : ∀ k, (∑ e, if p e then (x e k : EReal) * (v e : EReal) else 0) * (w k : EReal)
      = (((∑ e, if p e then x e k * v e else 0) * w k : ℝ) : EReal) := by
    intro k
    rw [EReal.coe_mul, coe_sum]
    congr 1
    refine Finset.sum_congr rfl fun e _ => ?_
    by_cases h : p e
    · rw [if_pos h, if_pos h, EReal.coe_mul]
    · rw [if_neg h, if_neg h, EReal.coe_zero]
  rw [Finset.sum_congr rfl fun e _ => hL e, Finset.sum_congr rfl fun k _ => hR k, ← coe_sum, ← coe_sum,
    exchange_real]

/-- The larger of two real numbers is one of them, so a real number. -/
theorem max_real {a b : EReal} (ha : ∃ r : ℝ, a = (r : EReal)) (hb : ∃ r : ℝ, b = (r : EReal)) :
    ∃ r : ℝ, max a b = (r : EReal) := by
  rcases max_choice a b with h | h
  · rw [h]; exact ha
  · rw [h]; exact hb

end Cert.RealSums

end
-- ==== Proof.Law.lean ====
/-
  The two arrangements of the graph-convolution layer agree when every entry is a real number and every shifted degree
  is positive.

  Two facts are needed. First, on a positive real r the reciprocal square root and the power -1/2 are the same real
  number 1 / √r (√r = r^(1/2), and r^(-y) = (r^y)⁻¹ for r ≥ 0); the exponent's word denotes the real -1/2, and the shift ε
  is a real number because its exponent field is not all ones, so a shifted degree is a real number, positive by
  hypothesis. Second, with real entries a, real node factors d and real features xs,
      (∑ m, a m · (d m · xs m)) · dn  =  ∑ m, ((dn · a m) · d m) · xs m :
  the row's factor dn moves across the sum over m (distributivity, which holds for real numbers and can fail at an
  infinity) and the factors are reordered. The weights and the bias enter both sides in the same way, so nothing is asked
  of them here.
-/
import proofs.«128174_j15762529976410_2_alg».proof.Proof.Spec
import proofs.«128174_j15762529976410_2_alg».proof.Proof.LibRealValued
import proofs.«128174_j15762529976410_2_alg».proof.Proof.LibRealSums

noncomputable section

namespace Cert.Gcn

open Idealize.ShloMosaic Idealize.ShloMosaic.ValueIdx

/-- The exponent's word denotes the real number -1/2. -/
theorem negHalf_eq : negHalf = ((-(1 / 2) : ℝ) : EReal) := by
  unfold negHalf
  simp [Ideal.ofBits, Ideal.ieee, -EReal.coe_mul]; norm_num

/-- The shift ε is a real number: the exponent field of its word is not all ones. -/
theorem eps_real : ∃ e : ℝ, eps = (e : EReal) :=
  Cert.RealValued.ieee_isReal 8 23 (0x358637BD#32 : BitVec 32) (by decide)

/-- On a positive real r the reciprocal square root and the power -1/2 are both the real number (√r)⁻¹. -/
theorem rsqrt_eq_pow (r : ℝ) (hr : 0 < r) :
    Ideal.rsqrt (r : EReal) = (((Real.sqrt r)⁻¹ : ℝ) : EReal) ∧ Ideal.pow (r : EReal) negHalf = (((Real.sqrt r)⁻¹ : ℝ) : EReal) := by
  refine ⟨?_, ?_⟩
  · rw [Ideal.rsqrt_coe, if_neg (not_lt.mpr hr.le), if_neg hr.ne']
  · rw [negHalf_eq, Ideal.pow_coe_coe]
    refine congrArg _ ?_
    show r ^ (-(1 / 2 : ℝ)) = (Real.sqrt r)⁻¹
    rw [Real.rpow_neg hr.le, Real.sqrt_eq_rpow]

/-- The exchange over the real numbers, stated on the extended reals: scaling the features before the sum and the sum
    afterwards by the row's factor is the same as normalising each adjacency entry by both factors first. -/
theorem agg_real {M : Type} [Fintype M] (a d xs : M → ℝ) (dn : ℝ) :
    (∑ m, (a m : EReal) * ((d m : EReal) * (xs m : EReal))) * (dn : EReal)
      = ∑ m, (((dn : EReal) * (a m : EReal)) * (d m : EReal)) * (xs m : EReal) := by
  simp only [← EReal.coe_mul]
  rw [← Cert.RealSums.coe_sum, ← Cert.RealSums.coe_sum, ← EReal.coe_mul]
  refine congrArg _ ?_
  rw [Finset.sum_mul]
  exact Finset.sum_congr rfl fun m _ => by ring

variable (x : (⟨3, ![4, 4096, 128]⟩ : Shape).Idx → EReal) (adj : (⟨3, ![4, 4096, 4096]⟩ : Shape).Idx → EReal)
  (w : (⟨2, ![128, 128]⟩ : Shape).Idx → EReal) (bias : (⟨1, ![128]⟩ : Shape).Idx → EReal)

/-- With a real adjacency and positive shifted degrees, the two node factors at (b, n) are one real number. -/
theorem factor_real (ha : ∀ i, ∃ r : ℝ, adj i = (r : EReal))
    (hdeg : ∀ (b : Fin 4) (n : Fin 4096), 0 < deg adj b n + eps) (b : Fin 4) (n : Fin 4096) :
    ∃ d : ℝ, dK adj b n = (d : EReal) ∧ dR adj b n = (d : EReal) := by
  choose A hA using ha
  obtain ⟨e, he⟩ := eps_real
  have hsum : deg adj b n + eps = ((∑ m : Fin 4096, A (ix3 b n m)) + e : ℝ) := by
    unfold deg
    rw [he, EReal.coe_add, Cert.RealSums.coe_sum]
    exact congrArg (· + (e : EReal)) (Finset.sum_congr rfl fun m _ => hA _)
  have hpos : 0 < (∑ m : Fin 4096, A (ix3 b n m)) + e := by
    have := hdeg b n
    rw [hsum] at this
    exact_mod_cast this
  unfold dK dR
  rw [hsum]
  exact ⟨_, rsqrt_eq_pow _ hpos⟩

/-- The aggregated features of the two arrangements agree at (b, n, f). -/
theorem aggK_eq_aggR (hx : ∀ i, ∃ r : ℝ, x i = (r : EReal)) (ha : ∀ i, ∃ r : ℝ, adj i = (r : EReal))
    (hdeg : ∀ (b : Fin 4) (n : Fin 4096), 0 < deg adj b n + eps) (b : Fin 4) (n : Fin 4096) (f : Fin 128) :
    aggK x adj b n f = aggR x adj b n f := by
  choose d hdK hdR using factor_real adj ha hdeg
  choose X hX using hx
  choose A hA using ha
  unfold aggK aggR
  have hl : ∀ m : Fin 4096, adj (ix3 b n m) * (dK adj b m * x (ix3 b m f))
      = (A (ix3 b n m) : EReal) * ((d b m : EReal) * (X (ix3 b m f) : EReal)) := fun m => by rw [hA, hdK, hX]
  have hr : ∀ m : Fin 4096, ((dR adj b n * adj (ix3 b n m)) * dR adj b m) * x (ix3 b m f)
      = (((d b n : EReal) * (A (ix3 b n m) : EReal)) * (d b m : EReal)) * (X (ix3 b m f) : EReal) := fun m => by
    rw [hdR, hdR, hA, hX]
  rw [Finset.sum_congr rfl fun m _ => hl m, Finset.sum_congr rfl fun m _ => hr m, hdK b n]
  exact agg_real (fun m => A (ix3 b n m)) (d b) (fun m => X (ix3 b m f)) (d b n)

/-- The two result arrays agree: at every (b, n, o) both are the same sum over f of the aggregated features against the
    weights, plus the bias. -/
theorem kernelVal_eq_refVal (hx : ∀ i, ∃ r : ℝ, x i = (r : EReal)) (ha : ∀ i, ∃ r : ℝ, adj i = (r : EReal))
    (hw : ∀ i, ∃ r : ℝ, w i = (r : EReal)) (hb : ∀ i, ∃ r : ℝ, bias i = (r : EReal))
    (hdeg : ∀ (b : Fin 4) (n : Fin 4096), 0 < deg adj b n + eps) :
    kernelVal x adj w bias = refVal x adj w bias := by
  funext i
  obtain ⟨b, n, o, rfl⟩ : ∃ (b : Fin 4) (n : Fin 4096) (o : Fin 128), i = ix3 b n o := ⟨i 0, i 1, i 2, eq_ix3 i⟩
  show kernelAt x adj w bias b n o = refAt x adj w bias b n o
  unfold kernelAt refAt
  refine congrArg (· + bias (ix1 o)) (Finset.sum_congr rfl fun f _ => ?_)
  rw [aggK_eq_aggR x adj hx ha hdeg b n f]

end Cert.Gcn

end
-- ==== Proof.PreDecode.lean ====
/-
  What the precondition says of the four argument arrays.

  The precondition is a conjunction of five "all entries satisfy …" statements, each a reduction by `and` over every
  axis of an array of one-bit comparisons, and it is stated to be 1. A conjunction of bits is 1 exactly when both bits
  are, and a reduction by `and` that is 1 met a 1 at every index. The first four compare |a| with +∞ for a an entry of the
  features, the adjacency, the weights and the bias: |a| = max a (-a) is +∞ at either infinity, so |a| < +∞ says that a is
  a real number. The fifth compares, at each (b, n), the row sum of the adjacency from 0 plus the shift ε with 0: the sum
  starts from the zero word, which denotes 0, so the compared value is the shifted degree, and the comparison says it is
  positive.
-/
import proofs.«128174_j15762529976410_2_alg».proof.Pre_finite_inputs
import proofs.«128174_j15762529976410_2_alg».proof.Proof.Spec
import proofs.«128174_j15762529976410_2_alg».proof.Proof.LibRealValued
import Idealize.ShloMosaic.Lib.ReduceAll
import Idealize.ShloMosaic.PureOps.Ideal.Laws

noncomputable section

namespace Cert.Gcn

open Idealize.ShloMosaic Idealize.ShloMosaic.ValueIdx Cert.Pre_finite_inputs

/-- A conjunction of two one-bit arrays that is 1 at an index has both bits 1 there. -/
theorem andi_apply_eq_one {s : Shape} (a b : IVec s 1) (i : s.Idx) (h : andi a b i = 1#1) : a i = 1#1 ∧ b i = 1#1 :=
  IntOp.andi_eq_one.1 h

/-- The ordered comparison "greater than" on the extended reals answers 1 only when the order holds. -/
theorem lt_of_cmp_ogt {a z : EReal} (h : Ideal.cmp .ogt a z = 1#1) : z < a := by
  by_contra hn
  have h' : BitVec.ofBool (decide (z < a)) = 1#1 := h
  rw [decide_eq_false hn] at h'
  exact absurd h' (by decide)

/-- The row sum of the adjacency over its last axis from the zero word, plus the broadcast shift, read at (b, n): the
    shifted degree of the specification. -/
theorem shifted_degree_apply (h' : S4x4096x4096.ReducesTo [2] S4x4096) (hu : 0 < S_.numel)
    (bc : S_.BroadcastsInDim S4x4096 (![] : Fin 0 → Fin S4x4096.rank))
    (adj : FVec Ideal S4x4096x4096 .f32) (b : Fin 4) (n : Fin 4096) :
    addf (Host.reduceAdd (F := Ideal) adj (constant (F := Ideal) S_ .f32 0x00000000#32) h' hu)
      (broadcastInDim S4x4096 ![] bc (constant (F := Ideal) S_ .f32 0x358637BD#32)) (ix2 b n) = deg adj b n + eps := by
  have hb : broadcastInDim S4x4096 ![] bc (constant (F := Ideal) S_ .f32 0x358637BD#32) (ix2 b n) = eps := rfl
  have hs : Host.reduceAdd (F := Ideal) adj (constant (F := Ideal) S_ .f32 0x00000000#32) h' hu (ix2 b n) = deg adj b n := by
    simp only [Host.reduceAdd, Ideal.hostReduceAdd_def]
    rw [Ideal.hostReduceAdd_single h' (by decide)]
    show Ideal.ofBits .f32 0x00000000#32 + _ = _
    rw [Ideal.ofBits_zero_f32, zero_add]
    unfold deg
    refine Finset.sum_congr rfl fun k _ => ?_
    exact congrArg adj (funext fun a => Fin.ext (by match a with | ⟨0, _⟩ => rfl | ⟨1, _⟩ => rfl | ⟨2, _⟩ => rfl))
  exact (addf_apply _ _ _).trans (congrArg₂ (· + ·) hs hb)

/-- The precondition read back: every entry of the four arrays is a real number, and every shifted degree is positive. -/
theorem pre_decode [Cert.Pre_finite_inputs.Facts]
    (x : (⟨3, ![4, 4096, 128]⟩ : Shape).Idx → EReal) (adj : (⟨3, ![4, 4096, 4096]⟩ : Shape).Idx → EReal)
    (w : (⟨2, ![128, 128]⟩ : Shape).Idx → EReal) (bias : (⟨1, ![128]⟩ : Shape).Idx → EReal)
    (h : Cert.Pre_finite_inputs.fn (F := Ideal) x adj w bias = fun _ => 1#1) :
    (∀ i, ∃ r : ℝ, x i = (r : EReal)) ∧ (∀ i, ∃ r : ℝ, adj i = (r : EReal)) ∧ (∀ i, ∃ r : ℝ, w i = (r : EReal))
      ∧ (∀ i, ∃ r : ℝ, bias i = (r : EReal)) ∧ ∀ (b : Fin 4) (n : Fin 4096), 0 < deg adj b n + eps := by
  haveI : Subsingleton S_.Idx := ⟨fun a b => funext fun d => d.elim0⟩
  have h0 := congrFun h ix0
  dsimp only [Cert.Pre_finite_inputs.fn, Cert.Pre_finite_inputs.fn_part1] at h0
  obtain ⟨h0, h5⟩ := andi_apply_eq_one _ _ _ h0
  obtain ⟨h0, h4⟩ := andi_apply_eq_one _ _ _ h0
  obtain ⟨h0, h3⟩ := andi_apply_eq_one _ _ _ h0
  obtain ⟨h1, h2⟩ := andi_apply_eq_one _ _ _ h0
  refine ⟨fun i => Cert.RealValued.all_isReal x _ _ _ _ h1 i, fun i => Cert.RealValued.all_isReal adj _ _ _ _ h2 i,
    fun i => Cert.RealValued.all_isReal w _ _ _ _ h3 i, fun i => Cert.RealValued.all_isReal bias _ _ _ _ h4 i, fun b n => ?_⟩
  have hc := Host.reduce_andi_all _ _ _ _ ix0 h5 (ix2 b n)
  have hlt := lt_of_cmp_ogt hc
  rw [shifted_degree_apply] at hlt
  exact lt_of_eq_of_lt Ideal.ofBits_zero_f32.symm hlt

end Cert.Gcn

end
-- ==== Proof.lean ====
/-
  A graph-convolution layer  Z = D^(-1/2) A D^(-1/2) X W + b  on 4 graphs of 4096 nodes with 128 features in and out, computed by
  two kernels against a plain reference; the two results are equal as extended reals when every input is a real number and every
  shifted degree  ∑ m, adj (b, n, m) + ε  is positive (the domain of the reference's power -1/2).

  The kernel program first sums the adjacency's rows (degree region: point (b, i) sums a block of 1024 whole rows), then on the
  host takes the reciprocal square root of the shifted degrees and scales the features by it, then aggregates (aggregation region:
  point (b, i, j) adds the product of a 1024 × 2048 block of the adjacency with a 2048 × 128 block of the scaled features into
  an accumulator kept from j = 0 to j = 1, and at j = 1 scales the accumulator's rows by the row's factor, multiplies by the
  weights, adds the bias and writes the output block back). So its result at (b, n, o) is
      ∑ f, ((∑ m, adj (b, n, m) · (d (b, m) · x (b, m, f))) · d (b, n)) · w (f, o) + bias o,     d = rsqrt (deg + ε),
  the contraction over m met as two halves of 2048. The reference normalises the adjacency entry by entry with
  d' = (deg + ε) ^ (-1/2) and contracts: ∑ f, (∑ m, ((d' (b, n) · adj (b, n, m)) · d' (b, m)) · x (b, m, f)) · w (f, o) + bias o.
  On a positive real rsqrt and the power -1/2 are one function, and with every factor a real number the two arrangements agree by
  commutativity and by moving the row's factor across the sum over m.

  Each program's frame (it runs to the end, faults nowhere, leaves its arguments unchanged) comes from its run: the kernel
  program's, at either reading of the floats, from the run of its three segments — the two regions, each with its body run at
  every grid point, and the host operations between them —, the reference's from the run of its host operations.
  The idealization rewrote no operation, so nothing is owed for it.
-/
import proofs.«128174_j15762529976410_2_alg».proof.Defs
import proofs.«128174_j15762529976410_2_alg».proof.Proof.Gen.Kernel
import proofs.«128174_j15762529976410_2_alg».proof.Proof.Gen.Kernel.Skeleton
import proofs.«128174_j15762529976410_2_alg».proof.Proof.Gen.Kernel.Launch
import proofs.«128174_j15762529976410_2_alg».proof.Proof.Gen.Kernel.Regions
import proofs.«128174_j15762529976410_2_alg».proof.Proof.Gen.Kernel.Points
import proofs.«128174_j15762529976410_2_alg».proof.Proof.Gen.KernelIdeal
import proofs.«128174_j15762529976410_2_alg».proof.Proof.Gen.KernelIdeal.Skeleton
import proofs.«128174_j15762529976410_2_alg».proof.Proof.Gen.KernelIdeal.Launch
import proofs.«128174_j15762529976410_2_alg».proof.Proof.Gen.KernelIdeal.Regions
import proofs.«128174_j15762529976410_2_alg».proof.Proof.Gen.KernelIdeal.Points
import proofs.«128174_j15762529976410_2_alg».proof.Proof.Gen.ReferenceIdeal
import proofs.«128174_j15762529976410_2_alg».proof.Proof.Gen.ReferenceIdeal.Run
import proofs.«128174_j15762529976410_2_alg».proof.Proof.Gen.ReferenceIdeal.Read
import proofs.«128174_j15762529976410_2_alg».proof.Proof.Gen.Pre_finite_inputs
import proofs.«128174_j15762529976410_2_alg».proof.Proof.RunB
import proofs.«128174_j15762529976410_2_alg».proof.Proof.AggValue
import proofs.«128174_j15762529976410_2_alg».proof.Proof.RefValue
import proofs.«128174_j15762529976410_2_alg».proof.Proof.Law
import proofs.«128174_j15762529976410_2_alg».proof.Proof.PreDecode
import Idealize.ShloMosaic.Adequacy
import Idealize.ShloMosaic.Init

noncomputable section

namespace Cert.Proof

open Idealize.ShloMosaic Idealize.ShloMosaic.TcCoe Idealize.SL.Sem

/-- The kernel program as printed runs, and its arguments end unchanged. -/
theorem frame_kernel : Cert.frame_Kernel (hKernel := Cert.Kernel.Gen.facts) (hPre_finite_inputs := Cert.Pre_finite_inputs.Gen.facts) :=
  fun m ρ _ => Cert.Kernel.Hand.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference runs, and its arguments end unchanged: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal instance the kernel program's result array ends at the layer's value in the kernel's arrangement and the
    reference's at the reference's arrangement, of arguments that agree; under the precondition — every entry a real number,
    every shifted degree positive — the two arrangements are one function. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Gcn.kernelVal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  obtain ⟨hx, ha, hw, hb, hdeg⟩ := @Cert.Gcn.pre_decode Cert.Pre_finite_inputs.Gen.facts _ _ _ _ (hpre c)
  exact (Cert.Gcn.reference_value _ _ _ _).trans (Cert.Gcn.kernelVal_eq_refVal _ _ _ _ hx ha hw hb hdeg).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
